-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x3x256x128 : Shape := ⟨5, ![32, 4, 3, 256, 128]⟩
abbrev S32x4 : Shape := ⟨2, ![32, 4]⟩
abbrev S98304x512 : Shape := ⟨2, ![98304, 512]⟩
abbrev S512 : Shape := ⟨1, ![512]⟩
abbrev S_ : Shape := ⟨0, ![]⟩

class Facts : Prop where
  bcast_S_S32x4x3x256x128 : S_.BroadcastsInDim S32x4x3x256x128 (![] : Fin 0 → Fin S32x4x3x256x128.rank)
  reducesTo_S32x4x3x256x128_S_d0_1_2_3_4 : S32x4x3x256x128.ReducesTo [0, 1, 2, 3, 4] S_
  h_S_ : 0 < S_.numel
  bcast_S_S98304x512 : S_.BroadcastsInDim S98304x512 (![] : Fin 0 → Fin S98304x512.rank)
  reducesTo_S98304x512_S_d0_1 : S98304x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32x4x3x256x128 .f32) (main_arg1 : IVec S32x4 32) (main_arg2 : FVec F S98304x512 .f32) (main_arg3 : FVec F S512 .f32) : IVec S_ 1 :=
  let main_v0 : FVec F S32x4x3x256x128 .f32 := Host.absf main_arg0
  let main_cst : FVec F S_ .f32 := constant S_ .f32 0x7F800000#32
  let main_v1 : FVec F S32x4x3x256x128 .f32 := broadcastInDim S32x4x3x256x128 ![] bcast_S_S32x4x3x256x128 main_cst
  let main_v2 : IVec S32x4x3x256x128 1 := cmpf .olt main_v0 main_v1
  let main_c : IVec S_ 1 := constantI S_ 1 1#1
  let main_v3 : IVec S_ 1 := (fun x v => Host.reduce IntOp.andi x v reducesTo_S32x4x3x256x128_S_d0_1_2_3_4 h_S_) main_v2 main_c
  let main_v4 : FVec F S98304x512 .f32 := Host.absf main_arg2
  let main_cst_0 : FVec F S_ .f32 := constant S_ .f32 0x7F800000#32
  let main_v5 : FVec F S98304x512 .f32 := broadcastInDim S98304x512 ![] bcast_S_S98304x512 main_cst_0
  let main_v6 : IVec S98304x512 1 := cmpf .olt main_v4 main_v5
  let main_c_1 : IVec S_ 1 := constantI S_ 1 1#1
  let main_v7 : IVec S_ 1 := (fun x v => Host.reduce IntOp.andi x v reducesTo_S98304x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S32x4x3x256x128 : Shape := ⟨5, ![32, 4, 3, 256, 128]⟩
abbrev S32x4 : Shape := ⟨2, ![32, 4]⟩
abbrev S98304x512 : Shape := ⟨2, ![98304, 512]⟩
abbrev S512 : Shape := ⟨1, ![512]⟩
abbrev S128x98304 : Shape := ⟨2, ![128, 98304]⟩
abbrev S1x512 : Shape := ⟨2, ![1, 512]⟩
abbrev S128x512 : Shape := ⟨2, ![128, 512]⟩
abbrev S128x4096 : Shape := ⟨2, ![128, 4096]⟩
abbrev S4096x512 : Shape := ⟨2, ![4096, 512]⟩
abbrev S32x4x512 : Shape := ⟨3, ![32, 4, 512]⟩
abbrev S32x1x512 : Shape := ⟨3, ![32, 1, 512]⟩
abbrev S32x3x512 : Shape := ⟨3, ![32, 3, 512]⟩
abbrev S32x1 : Shape := ⟨2, ![32, 1]⟩
abbrev S32x3 : Shape := ⟨2, ![32, 3]⟩
abbrev S32 : Shape := ⟨1, ![32]⟩
abbrev S1x32 : Shape := ⟨2, ![1, 32]⟩
abbrev S32x32 : Shape := ⟨2, ![32, 32]⟩
abbrev S_ : Shape := ⟨0, ![]⟩
abbrev S32x32x1 : Shape := ⟨3, ![32, 32, 1]⟩
abbrev S32x32x3x512 : Shape := ⟨4, ![32, 32, 3, 512]⟩
abbrev S32x32x3 : Shape := ⟨3, ![32, 32, 3]⟩
abbrev S1x32x1x1x512 : Shape := ⟨5, ![1, 32, 1, 1, 512]⟩
abbrev S32x32x1x3x512 : Shape := ⟨5, ![32, 32, 1, 3, 512]⟩
abbrev S1x32x1x1 : Shape := ⟨4, ![1, 32, 1, 1]⟩
abbrev S32x32x1x3 : Shape := ⟨4, ![32, 32, 1, 3]⟩
abbrev S1x32x3x1 : Shape := ⟨4, ![1, 32, 3, 1]⟩
abbrev S32x32x3x3 : Shape := ⟨4, ![32, 32, 3, 3]⟩

abbrev nBuf : Space → Nat
  | .hbm => 75
  | .vmem => 7
  | .smem => 0
  | _ => 0

abbrev bufTy : (tb : Table) → Fin (tcTables nBuf tb) → BufTy
  | .hbm, ⟨0, _⟩ => ⟨S32x4x3x256x128, .f32⟩
  | .hbm, ⟨1, _⟩ => ⟨S32x4, .i32⟩
  | .hbm, ⟨2, _⟩ => ⟨S98304x512, .f32⟩
  | .hbm, ⟨3, _⟩ => ⟨S512, .f32⟩
  | .hbm, ⟨4, _⟩ => ⟨S128x98304, .f32⟩
  | .hbm, ⟨5, _⟩ => ⟨S1x512, .f32⟩
  | .hbm, ⟨6, _⟩ => ⟨S128x512, .f32⟩
  | .hbm, ⟨7, _⟩ => ⟨S32x4x512, .f32⟩
  | .hbm, ⟨8, _⟩ => ⟨S32x1x512, .f32⟩
  | .hbm, ⟨9, _⟩ => ⟨S32x3x512, .f32⟩
  | .hbm, ⟨10, _⟩ => ⟨S32x1, .i32⟩
  | .hbm, ⟨11, _⟩ => ⟨S32x3, .i32⟩
  | .hbm, ⟨12, _⟩ => ⟨S32, .i32⟩
  | .hbm, ⟨13, _⟩ => ⟨S1x32, .i32⟩
  | .hbm, ⟨14, _⟩ => ⟨S32, .i32⟩
  | .hbm, ⟨15, _⟩ => ⟨S32x1, .i32⟩
  | .hbm, ⟨16, _⟩ => ⟨S32x32, .i32⟩
  | .hbm, ⟨17, _⟩ => ⟨S32x32, .i32⟩
  | .hbm, ⟨18, _⟩ => ⟨S32x32, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S32x32, .i32⟩
  | .hbm, ⟨26, _⟩ => ⟨S32x32, .i32⟩
  | .hbm, ⟨27, _⟩ => ⟨S_, .i32⟩
  | .hbm, ⟨28, _⟩ => ⟨S32x32, .i32⟩
  | .hbm, ⟨29, _⟩ => ⟨S32x32, .i1⟩
  | .hbm, ⟨30, _⟩ => ⟨S_, .i32⟩
  | .hbm, ⟨31, _⟩ => ⟨S32x32, .i32⟩
  | .hbm, ⟨32, _⟩ => ⟨S32x32, .i1⟩
  | .hbm, ⟨33, _⟩ => ⟨S_, .i32⟩
  | .hbm, ⟨34, _⟩ => ⟨S_, .i1⟩
  | .hbm, ⟨35, _⟩ => ⟨S32x32, .i1⟩
  | .hbm, ⟨36, _⟩ => ⟨S32x32, .i1⟩
  | .hbm, ⟨37, _⟩ => ⟨S32x32, .i1⟩
  | .hbm, ⟨38, _⟩ => ⟨S32x32, .i32⟩
  | .hbm, ⟨39, _⟩ => ⟨S32x32, .i32⟩
  | .hbm, ⟨40, _⟩ => ⟨S32x32, .i32⟩
  | .hbm, ⟨41, _⟩ => ⟨S_, .i32⟩
  | .hbm, ⟨42, _⟩ => ⟨S32x32, .i32⟩
  | .hbm, ⟨43, _⟩ => ⟨S32x32, .i1⟩
  | .hbm, ⟨44, _⟩ => ⟨S_, .i32⟩
  | .hbm, ⟨45, _⟩ => ⟨S32x32, .i32⟩
  | .hbm, ⟨46, _⟩ => ⟨S32x32, .i32⟩
  | .hbm, ⟨47, _⟩ => ⟨S32x32, .i32⟩
  | .hbm, ⟨48, _⟩ => ⟨S32x32x1, .i32⟩
  | .hbm, ⟨49, _⟩ => ⟨S32x32x3x512, .f32⟩
  | .hbm, ⟨50, _⟩ => ⟨S_, .i32⟩
  | .hbm, ⟨51, _⟩ => ⟨S32x32, .i32⟩
  | .hbm, ⟨52, _⟩ => ⟨S32x32, .i1⟩
  | .hbm, ⟨53, _⟩ => ⟨S_, .i32⟩
  | .hbm, ⟨54, _⟩ => ⟨S32x32, .i32⟩
  | .hbm, ⟨55, _⟩ => ⟨S32x32, .i32⟩
  | .hbm, ⟨56, _⟩ => ⟨S32x32, .i32⟩
  | .hbm, ⟨57, _⟩ => ⟨S32x32x1, .i32⟩
  | .hbm, ⟨58, _⟩ => ⟨S32x32x3, .i32⟩
  | .hbm, ⟨59, _⟩ => ⟨S1x32x1x1x512, .f32⟩
  | .hbm, ⟨60, _⟩ => ⟨S32x32x1x3x512, .f32⟩
  | .hbm, ⟨61, _⟩ => ⟨S32x32x1x3x512, .f32⟩
  | .hbm, ⟨62, _⟩ => ⟨S32x32x1x3x512, .f32⟩
  | .hbm, ⟨63, _⟩ => ⟨S32x32x1x3x512, .f32⟩
  | .hbm, ⟨64, _⟩ => ⟨S1x32x1x1, .i32⟩
  | .hbm, ⟨65, _⟩ => ⟨S32x32x1x3, .i32⟩
  | .hbm, ⟨66, _⟩ => ⟨S32x32x1x3, .i32⟩
  | .hbm, ⟨67, _⟩ => ⟨S32x32x1x3, .i1⟩
  | .hbm, ⟨68, _⟩ => ⟨S32x32x1x3, .i32⟩
  | .hbm, ⟨69, _⟩ => ⟨S1x32x3x1, .i32⟩
  | .hbm, ⟨70, _⟩ => ⟨S32x32x1x3, .i32⟩
  | .hbm, ⟨71, _⟩ => ⟨S32x32x3x3, .i32⟩
  | .hbm, ⟨72, _⟩ => ⟨S32x32x3x3, .i32⟩
  | .hbm, ⟨73, _⟩ => ⟨S32x32x3x3, .i1⟩
  | .hbm, ⟨74, _⟩ => ⟨S32x32x3x3, .f32⟩
  | .local _ .vmem, ⟨0, _⟩ => ⟨S128x4096, .f32⟩
  | .local _ .vmem, ⟨1, _⟩ => ⟨S128x4096, .f32⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S128x512, .f32⟩
  | .local _ .vmem, ⟨6, _⟩ => ⟨S128x512, .f32⟩
  | _, _ => ⟨S32x4x3x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v15 : Ref sig .tc := ⟨.hbm, 40, rfl⟩
abbrev main_c_0 : Ref sig .tc := ⟨.hbm, 41, rfl⟩
abbrev main_v16 : Ref sig .tc := ⟨.hbm, 42, rfl⟩
abbrev main_v17 : Ref sig .tc := ⟨.hbm, 43, rfl⟩
abbrev main_c_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_2 : Ref sig .tc := ⟨.hbm, 50, rfl⟩
abbrev main_v23 : Ref sig .tc := ⟨.hbm, 51, rfl⟩
abbrev main_v24 : Ref sig .tc := ⟨.hbm, 52, rfl⟩
abbrev main_c_3 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v14 : BitVec 1 := Scalar.cmpi .eq arg0 c23_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S32x4x3x256x128_S128x98304 : S32x4x3x256x128.ShapeCasts S128x98304
  shapeCasts_S512_S1x512 : S512.ShapeCasts S1x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  shapeCasts_S128x512_S32x4x512 : S128x512.ShapeCasts S32x4x512
  slices_S32x4x512_S32x1x512_0_0_0 : S32x4x512.Slices ![0, 0, 0] S32x1x512
  slices_S32x4x512_S32x3x512_0_1_0 : S32x4x512.Slices ![0, 1, 0] S32x3x512
  slices_S32x4_S32x1_0_0 : S32x4.Slices ![0, 0] S32x1
  slices_S32x4_S32x3_0_1 : S32x4.Slices ![0, 1] S32x3
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x1x512_S1x32x1x1x512_1_2_4 : S32x1x512.BroadcastsInDim S1x32x1x1x512 (![1, 2, 4] : Fin 3 → Fin S1x32x1x1x512.rank)
  bcast_S32x32x3x512_S32x32x1x3x512_0_1_3_4 : S32x32x3x512.BroadcastsInDim S32x32x1x3x512 (![0, 1, 3, 4] : Fin 4 → Fin S32x32x1x3x512.rank)
  bcast_S1x32x1x1x512_S32x32x1x3x512_0_1_2_3_4 : S1x32x1x1x512.BroadcastsInDim S32x32x1x3x512 (![0, 1, 2, 3, 4] : Fin 5 → Fin S32x32x1x3x512.rank)
  bcast_S32x1_S1x32x1x1_1_2 : S32x1.BroadcastsInDim S1x32x1x1 (![1, 2] : Fin 2 → Fin S1x32x1x1.rank)
  bcast_S32x32x3_S32x32x1x3_0_1_3 : S32x32x3.BroadcastsInDim S32x32x1x3 (![0, 1, 3] : Fin 3 → Fin S32x32x1x3.rank)
  bcast_S1x32x1x1_S32x32x1x3_0_1_2_3 : S1x32x1x1.BroadcastsInDim S32x32x1x3 (![0, 1, 2, 3] : Fin 4 → Fin S32x32x1x3.rank)
  natLt_1_32 : 1 < 32
  bcast_S32x3_S1x32x3x1_1_2 : S32x3.BroadcastsInDim S1x32x3x1 (![1, 2] : Fin 2 → Fin S1x32x3x1.rank)
  bcast_S1x32x3x1_S32x32x3x3_0_1_2_3 : S1x32x3x1.BroadcastsInDim S32x32x3x3 (![0, 1, 2, 3] : Fin 4 → Fin S32x32x3x3.rank)
  bcast_S32x32x1x3_S32x32x3x3_0_1_2_3 : S32x32x1x3.BroadcastsInDim S32x32x3x3 (![0, 1, 2, 3] : Fin 4 → Fin S32x32x3x3.rank)
  dot_S128x4096_S4096x512_S128x512_1_0_0_1_n_n_wf : DotDims.WF S128x4096 S4096x512 S128x512 [1] [0] [0] [1] [] []
  gather_S32x3x512_S32x32x1_S32x32x3x512_23_0_n_n_0_2_13512_wf : GatherDims.WF S32x3x512 S32x32x1 S32x32x3x512 [2, 3] [0] [] [0] [] 2 ![1, 3, 512]
  gather_S32x3_S32x32x1_S32x32x3_2_0_n_n_0_2_13_wf : GatherDims.WF S32x3 S32x32x1 S32x32x3 [2] [0] [] [0] [] 2 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x98304.size a
  hwx0_0 : ∀ i : grid0.Coords, EltTy.bits .f32 = 32 ∨ (Rect.block (s := S128x98304) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S98304x512.size a
  hwx0_1 : ∀ i : grid0.Coords, EltTy.bits .f32 = 32 ∨ (Rect.block (s := S98304x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)

variable [Facts₀]

def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf
def gather_S32x3x512_S32x32x1_S32x32x3x512_23_0_n_n_0_2_13512 : GatherDims S32x3x512 S32x32x1 S32x32x3x512 where
  offsetDims := [2, 3]
  collapsedSliceDims := [0]
  operandBatchingDims := []
  startIndicesBatchingDims := []
  startIndexMap := [0]
  indexVectorDim := 2
  sliceSizes := ![1, 3, 512]
  wf := gather_S32x3x512_S32x32x1_S32x32x3x512_23_0_n_n_0_2_13512_wf
def gather_S32x3_S32x32x1_S32x32x3_2_0_n_n_0_2_13 : GatherDims S32x3 S32x32x1 S32x32x3 where
  offsetDims := [2]
  collapsedSliceDims := [0]
  operandBatchingDims := []
  startIndicesBatchingDims := []
  startIndexMap := [0]
  indexVectorDim := 2
  sliceSizes := ![1, 3]
  wf := gather_S32x3_S32x32x1_S32x32x3_2_0_n_n_0_2_13_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x4x3x256x128 : Shape := ⟨5, ![32, 4, 3, 256, 128]⟩
abbrev S32x4 : Shape := ⟨2, ![32, 4]⟩
abbrev S98304x512 : Shape := ⟨2, ![98304, 512]⟩
abbrev S512 : Shape := ⟨1, ![512]⟩
abbrev S32x4x98304 : Shape := ⟨3, ![32, 4, 98304]⟩
abbrev S32x4x512 : Shape := ⟨3, ![32, 4, 512]⟩
abbrev S1x1x512 : Shape := ⟨3, ![1, 1, 512]⟩
abbrev S32x1x512 : Shape := ⟨3, ![32, 1, 512]⟩
abbrev S32x3x512 : Shape := ⟨3, ![32, 3, 512]⟩
abbrev S32x1 : Shape := ⟨2, ![32, 1]⟩
abbrev S32x3 : Shape := ⟨2, ![32, 3]⟩
abbrev S32 : Shape := ⟨1, ![32]⟩
abbrev S1x32 : Shape := ⟨2, ![1, 32]⟩
abbrev S32x32 : Shape := ⟨2, ![32, 32]⟩
abbrev S_ : Shape := ⟨0, ![]⟩
abbrev S32x32x1 : Shape := ⟨3, ![32, 32, 1]⟩
abbrev S32x32x3x512 : Shape := ⟨4, ![32, 32, 3, 512]⟩
abbrev S32x32x3 : Shape := ⟨3, ![32, 32, 3]⟩
abbrev S1x32x1x1x512 : Shape := ⟨5, ![1, 32, 1, 1, 512]⟩
abbrev S32x32x1x3x512 : Shape := ⟨5, ![32, 32, 1, 3, 512]⟩
abbrev S1x32x1x1 : Shape := ⟨4, ![1, 32, 1, 1]⟩
abbrev S32x32x1x3 : Shape := ⟨4, ![32, 32, 1, 3]⟩
abbrev S1x32x3x1 : Shape := ⟨4, ![1, 32, 3, 1]⟩
abbrev S32x32x3x3 : Shape := ⟨4, ![32, 32, 3, 3]⟩

abbrev nBuf : Space → Nat
  | .hbm => 76
  | .vmem => 0
  | .smem => 0
  | _ => 0

abbrev bufTy : (tb : Table) → Fin (tcTables nBuf tb) → BufTy
  | .hbm, ⟨0, _⟩ => ⟨S32x4x3x256x128, .f32⟩
  | .hbm, ⟨1, _⟩ => ⟨S32x4, .i32⟩
  | .hbm, ⟨2, _⟩ => ⟨S98304x512, .f32⟩
  | .hbm, ⟨3, _⟩ => ⟨S512, .f32⟩
  | .hbm, ⟨4, _⟩ => ⟨S32x4x98304, .f32⟩
  | .hbm, ⟨5, _⟩ => ⟨S32x4x512, .f32⟩
  | .hbm, ⟨6, _⟩ => ⟨S1x1x512, .f32⟩
  | .hbm, ⟨7, _⟩ => ⟨S32x4x512, .f32⟩
  | .hbm, ⟨8, _⟩ => ⟨S32x4x512, .f32⟩
  | .hbm, ⟨9, _⟩ => ⟨S32x1x512, .f32⟩
  | .hbm, ⟨10, _⟩ => ⟨S32x3x512, .f32⟩
  | .hbm, ⟨11, _⟩ => ⟨S32x1, .i32⟩
  | .hbm, ⟨12, _⟩ => ⟨S32x3, .i32⟩
  | .hbm, ⟨13, _⟩ => ⟨S32, .i32⟩
  | .hbm, ⟨14, _⟩ => ⟨S1x32, .i32⟩
  | .hbm, ⟨15, _⟩ => ⟨S32, .i32⟩
  | .hbm, ⟨16, _⟩ => ⟨S32x1, .i32⟩
  | .hbm, ⟨17, _⟩ => ⟨S32x32, .i32⟩
  | .hbm, ⟨18, _⟩ => ⟨S32x32, .i32⟩
  | .hbm, ⟨19, _⟩ => ⟨S32x32, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S32x32, .i32⟩
  | .hbm, ⟨27, _⟩ => ⟨S32x32, .i32⟩
  | .hbm, ⟨28, _⟩ => ⟨S_, .i32⟩
  | .hbm, ⟨29, _⟩ => ⟨S32x32, .i32⟩
  | .hbm, ⟨30, _⟩ => ⟨S32x32, .i1⟩
  | .hbm, ⟨31, _⟩ => ⟨S_, .i32⟩
  | .hbm, ⟨32, _⟩ => ⟨S32x32, .i32⟩
  | .hbm, ⟨33, _⟩ => ⟨S32x32, .i1⟩
  | .hbm, ⟨34, _⟩ => ⟨S_, .i32⟩
  | .hbm, ⟨35, _⟩ => ⟨S_, .i1⟩
  | .hbm, ⟨36, _⟩ => ⟨S32x32, .i1⟩
  | .hbm, ⟨37, _⟩ => ⟨S32x32, .i1⟩
  | .hbm, ⟨38, _⟩ => ⟨S32x32, .i1⟩
  | .hbm, ⟨39, _⟩ => ⟨S32x32, .i32⟩
  | .hbm, ⟨40, _⟩ => ⟨S32x32, .i32⟩
  | .hbm, ⟨41, _⟩ => ⟨S32x32, .i32⟩
  | .hbm, ⟨42, _⟩ => ⟨S_, .i32⟩
  | .hbm, ⟨43, _⟩ => ⟨S32x32, .i32⟩
  | .hbm, ⟨44, _⟩ => ⟨S32x32, .i1⟩
  | .hbm, ⟨45, _⟩ => ⟨S_, .i32⟩
  | .hbm, ⟨46, _⟩ => ⟨S32x32, .i32⟩
  | .hbm, ⟨47, _⟩ => ⟨S32x32, .i32⟩
  | .hbm, ⟨48, _⟩ => ⟨S32x32, .i32⟩
  | .hbm, ⟨49, _⟩ => ⟨S32x32x1, .i32⟩
  | .hbm, ⟨50, _⟩ => ⟨S32x32x3x512, .f32⟩
  | .hbm, ⟨51, _⟩ => ⟨S_, .i32⟩
  | .hbm, ⟨52, _⟩ => ⟨S32x32, .i32⟩
  | .hbm, ⟨53, _⟩ => ⟨S32x32, .i1⟩
  | .hbm, ⟨54, _⟩ => ⟨S_, .i32⟩
  | .hbm, ⟨55, _⟩ => ⟨S32x32, .i32⟩
  | .hbm, ⟨56, _⟩ => ⟨S32x32, .i32⟩
  | .hbm, ⟨57, _⟩ => ⟨S32x32, .i32⟩
  | .hbm, ⟨58, _⟩ => ⟨S32x32x1, .i32⟩
  | .hbm, ⟨59, _⟩ => ⟨S32x32x3, .i32⟩
  | .hbm, ⟨60, _⟩ => ⟨S1x32x1x1x512, .f32⟩
  | .hbm, ⟨61, _⟩ => ⟨S32x32x1x3x512, .f32⟩
  | .hbm, ⟨62, _⟩ => ⟨S32x32x1x3x512, .f32⟩
  | .hbm, ⟨63, _⟩ => ⟨S32x32x1x3x512, .f32⟩
  | .hbm, ⟨64, _⟩ => ⟨S32x32x1x3x512, .f32⟩
  | .hbm, ⟨65, _⟩ => ⟨S1x32x1x1, .i32⟩
  | .hbm, ⟨66, _⟩ => ⟨S32x32x1x3, .i32⟩
  | .hbm, ⟨67, _⟩ => ⟨S32x32x1x3, .i32⟩
  | .hbm, ⟨68, _⟩ => ⟨S32x32x1x3, .i1⟩
  | .hbm, ⟨69, _⟩ => ⟨S32x32x1x3, .i32⟩
  | .hbm, ⟨70, _⟩ => ⟨S1x32x3x1, .i32⟩
  | .hbm, ⟨71, _⟩ => ⟨S32x32x1x3, .i32⟩
  | .hbm, ⟨72, _⟩ => ⟨S32x32x3x3, .i32⟩
  | .hbm, ⟨73, _⟩ => ⟨S32x32x3x3, .i32⟩
  | .hbm, ⟨74, _⟩ => ⟨S32x32x3x3, .i1⟩
  | .hbm, ⟨75, _⟩ => ⟨S32x32x3x3, .f32⟩
  | _, _ => ⟨S32x4x3x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v16 : Ref sig .tc := ⟨.hbm, 41, rfl⟩
abbrev main_c_0 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_2 : Ref sig .tc := ⟨.hbm, 51, rfl⟩
abbrev main_v24 : Ref sig .tc := ⟨.hbm, 52, rfl⟩
abbrev main_v25 : Ref sig .tc := ⟨.hbm, 53, rfl⟩
abbrev main_c_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]

class Facts₀ : Prop where
  shapeCasts_S32x4x3x256x128_S32x4x98304 : S32x4x3x256x128.ShapeCasts S32x4x98304
  bcast_S512_S1x1x512_2 : S512.BroadcastsInDim S1x1x512 (![2] : Fin 1 → Fin S1x1x512.rank)
  bcast_S1x1x512_S32x4x512_0_1_2 : S1x1x512.BroadcastsInDim S32x4x512 (![0, 1, 2] : Fin 3 → Fin S32x4x512.rank)
  slices_S32x4x512_S32x1x512_0_0_0 : S32x4x512.Slices ![0, 0, 0] S32x1x512
  slices_S32x4x512_S32x3x512_0_1_0 : S32x4x512.Slices ![0, 1, 0] S32x3x512
  slices_S32x4_S32x1_0_0 : S32x4.Slices ![0, 0] S32x1
  slices_S32x4_S32x3_0_1 : S32x4.Slices ![0, 1] S32x3
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x1x512_S1x32x1x1x512_1_2_4 : S32x1x512.BroadcastsInDim S1x32x1x1x512 (![1, 2, 4] : Fin 3 → Fin S1x32x1x1x512.rank)
  bcast_S32x32x3x512_S32x32x1x3x512_0_1_3_4 : S32x32x3x512.BroadcastsInDim S32x32x1x3x512 (![0, 1, 3, 4] : Fin 4 → Fin S32x32x1x3x512.rank)
  bcast_S1x32x1x1x512_S32x32x1x3x512_0_1_2_3_4 : S1x32x1x1x512.BroadcastsInDim S32x32x1x3x512 (![0, 1, 2, 3, 4] : Fin 5 → Fin S32x32x1x3x512.rank)
  bcast_S32x1_S1x32x1x1_1_2 : S32x1.BroadcastsInDim S1x32x1x1 (![1, 2] : Fin 2 → Fin S1x32x1x1.rank)
  bcast_S32x32x3_S32x32x1x3_0_1_3 : S32x32x3.BroadcastsInDim S32x32x1x3 (![0, 1, 3] : Fin 3 → Fin S32x32x1x3.rank)
  bcast_S1x32x1x1_S32x32x1x3_0_1_2_3 : S1x32x1x1.BroadcastsInDim S32x32x1x3 (![0, 1, 2, 3] : Fin 4 → Fin S32x32x1x3.rank)
  natLt_1_32 : 1 < 32
  bcast_S32x3_S1x32x3x1_1_2 : S32x3.BroadcastsInDim S1x32x3x1 (![1, 2] : Fin 2 → Fin S1x32x3x1.rank)
  bcast_S1x32x3x1_S32x32x3x3_0_1_2_3 : S1x32x3x1.BroadcastsInDim S32x32x3x3 (![0, 1, 2, 3] : Fin 4 → Fin S32x32x3x3.rank)
  bcast_S32x32x1x3_S32x32x3x3_0_1_2_3 : S32x32x1x3.BroadcastsInDim S32x32x3x3 (![0, 1, 2, 3] : Fin 4 → Fin S32x32x3x3.rank)
  dot_S32x4x98304_S98304x512_S32x4x512_2_0_01_1_n_n_wf : DotDims.WF S32x4x98304 S98304x512 S32x4x512 [2] [0] [0, 1] [1] [] []
  gather_S32x3x512_S32x32x1_S32x32x3x512_23_0_n_n_0_2_13512_wf : GatherDims.WF S32x3x512 S32x32x1 S32x32x3x512 [2, 3] [0] [] [0] [] 2 ![1, 3, 512]
  gather_S32x3_S32x32x1_S32x32x3_2_0_n_n_0_2_13_wf : GatherDims.WF S32x3 S32x32x1 S32x32x3 [2] [0] [] [0] [] 2 ![1, 3]

variable [Facts₀]

def dot_S32x4x98304_S98304x512_S32x4x512_2_0_01_1_n_n : DotDims S32x4x98304 S98304x512 S32x4x512 where
  lhsContracting := [2]
  rhsContracting := [0]
  lhsNonContracting := [0, 1]
  rhsNonContracting := [1]
  lhsBatch := []
  rhsBatch := []
  wf := dot_S32x4x98304_S98304x512_S32x4x512_2_0_01_1_n_n_wf
def gather_S32x3x512_S32x32x1_S32x32x3x512_23_0_n_n_0_2_13512 : GatherDims S32x3x512 S32x32x1 S32x32x3x512 where
  offsetDims := [2, 3]
  collapsedSliceDims := [0]
  operandBatchingDims := []
  startIndicesBatchingDims := []
  startIndexMap := [0]
  indexVectorDim := 2
  sliceSizes := ![1, 3, 512]
  wf := gather_S32x3x512_S32x32x1_S32x32x3x512_23_0_n_n_0_2_13512_wf
def gather_S32x3_S32x32x1_S32x32x3_2_0_n_n_0_2_13 : GatherDims S32x3 S32x32x1 S32x32x3 where
  offsetDims := [2]
  collapsedSliceDims := [0]
  operandBatchingDims := []
  startIndicesBatchingDims := []
  startIndexMap := [0]
  indexVectorDim := 2
  sliceSizes := ![1, 3]
  wf := gather_S32x3_S32x32x1_S32x32x3_2_0_n_n_0_2_13_wf

class Facts : Prop extends Facts₀ where

variable [Facts]
-- ==== Proof.KBKit.lean ====
/-
  The kernel's frame, shared part: the buffer contents the pallas region is entered with (after the two reshapes that
  precede it), @main as host lines – region – host lines, the facts about the 68 host lines that follow the region (they
  touch unscoped TensorCore buffers only, allocate nothing, and write none of the four arrays the windows stage), the
  windows' blocks, the body's two branch conditions in closed form over the 24 grid points (the accumulator is reset at
  point 0 only, the output is stored at point 23 only), where the output window is idle, and the staging memrefs.
-/
import proofs.«164070_j32693291057655_1_alg».proof.Proof.Gen.Kernel.Launch
import proofs.«164070_j32693291057655_1_alg».proof.Proof.Gen.Kernel.Skeleton
import proofs.«164070_j32693291057655_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The host lines after the region, in their three stretches. -/
abbrev tailOps : List (List (HloOp τ sig (Elt F))) := [hostOps1, hostOps1_1, hostOps1_2]

/-- @main is the two reshapes, the region, then the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

theorem keeps_hostOps1 : ∀ op ∈ (hostOps1 : List (HloOp τ sig (Elt F))), ∀ w, Proc.devRef .tc (Pipeline.arrRef spec0 w) ∉ op.writes := by
  intro op hop
  simp only [hostOps1, main_call0_call0, List.mem_cons, List.mem_nil_iff, or_false] at hop
  rcases hop with rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem keeps_hostOps1_1 : ∀ op ∈ (hostOps1_1 : List (HloOp τ sig (Elt F))), ∀ w, Proc.devRef .tc (Pipeline.arrRef spec0 w) ∉ op.writes := by
  intro op hop
  simp only [hostOps1_1, main_call0_call0, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem keeps_hostOps1_2 : ∀ op ∈ (hostOps1_2 : List (HloOp τ sig (Elt F))), ∀ w, Proc.devRef .tc (Pipeline.arrRef spec0 w) ∉ op.writes := by
  intro op hop
  simp only [hostOps1_2, main_call0_call0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No later line writes an array a window stages: each writes only its own result buffer. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact keeps_hostOps1 op hop
  · exact keeps_hostOps1_1 op hop
  · exact keeps_hostOps1_2 op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first grid point" as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 24 = 0 :=
  (by decide +kernel : ∀ t : Fin grid0.N, cond0_0 (grid0.coords t) ↔ t.val % 24 = 0)

/-- "This is the last grid point" as the body computes it. -/
abbrev cond0_1 (i : grid0.Coords) : Prop := k0_cond2 i = 1#1
theorem hcond0_1 : ∀ t : Fin cfg0.N, cond0_1 (grid0.coords t) ↔ t.val % 24 = 23 :=
  (by decide +kernel : ∀ t : Fin grid0.N, cond0_1 (grid0.coords t) ↔ t.val % 24 = 23)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the body stores nothing into the output window and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the output window is live. -/
theorem liveAt0_3 : ∀ t : Fin cfg0.N, cond0_1 (grid0.coords t) → cfg0.idle 3 (grid0.coords t) = false := by decide +kernel

/-! ## The memrefs the body is called with -/

abbrev VO0_3 : View sig .tc .vmem S128x512 .f32 := (Memref.whole cc0_stg3_0 : Memref sig .tc .vmem S128x512 .f32).view
abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S128x512 .f32 := Memref.whole cc0_scratch0
abbrev VS0_0 : View sig .tc .vmem S128x512 .f32 := scM0_0.view

/-- What the region may use beside its windows: the accumulator, owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.KBRuns.lean ====
/-
  The kernel body run once per control case, on whole staging memrefs. The 24 grid points fall into three cases: the
  first point (the accumulator is zeroed, then the point's product is added to it), the middle points (the product is added),
  and the last point (the product is added, then the accumulator plus the bias row is stored into the output block). Each run
  hands back the input buffers as found and the buffers it stored into with its stores recorded as pieces; the pieces are
  found by the symbolic execution.
-/
import proofs.«164070_j32693291057655_1_alg».proof.Proof.KBKit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point: the accumulator, found at anything, is zeroed and the product added; the output buffer is untouched. -/
noncomputable def kernelRun0_A (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : cond0_0 i) (hc1 : ¬cond0_1 i)
    (x0 : Vec F S128x4096 .f32) (x1 : Vec F S4096x512 .f32) (x2 : Vec F S1x512 .f32) :
    Σ' (L3 : List (View.Piece (Elt F) S128x512 .f32)), { LS0 : List (View.Piece (Elt F) S128x512 .f32) //
      ∀ (xi3 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- A middle point: the product is added to the accumulator, found at what the point before left; the output buffer is untouched. -/
noncomputable def kernelRun0_B (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : ¬cond0_1 i)
    (x0 : Vec F S128x4096 .f32) (x1 : Vec F S4096x512 .f32) (x2 : Vec F S1x512 .f32) (xs0 : Vec F S128x512 .f32) :
    Σ' (L3 : List (View.Piece (Elt F) S128x512 .f32)), { LS0 : List (View.Piece (Elt F) S128x512 .f32) //
      ∀ (xi3 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- The last point: the product is added to the accumulator, and the accumulator plus the bias row is stored into the output
    buffer, found at anything. -/
noncomputable def kernelRun0_C (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i)
    (x0 : Vec F S128x4096 .f32) (x1 : Vec F S4096x512 .f32) (x2 : Vec F S1x512 .f32) (xs0 : Vec F S128x512 .f32) :
    Σ' (L3 : List (View.Piece (Elt F) S128x512 .f32)), { LS0 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Gen

end
-- ==== Proof.KBFrame.lean ====
/-
  The kernel's frame: what each control case leaves in the accumulator and in the output block (its stores read back), the
  accumulation point by point over the 24 grid points, the region invariant that carries the accumulator from one point to
  the next, the pipeline's proof data, the body obligation at every point, and the run of @main: it terminates without a
  fault, every array a window stages ends at what the proof data computes, and every other buffer at what the host lines
  after the region leave.
-/
import proofs.«164070_j32693291057655_1_alg».proof.Proof.KBRuns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point stores nothing into the output block: a placeholder nothing consults (the window is idle there). -/
def out0_A_3 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : cond0_0 i) (hc1 : ¬cond0_1 i) (x0 : Vec F S128x4096 .f32) (x1 : Vec F S4096x512 .f32) (x2 : Vec F S1x512 .f32) : Vec F S128x512 .f32 :=
  VO0_3.read (Elt F) (VO0_3.writes (Elt F) VO0_3.junk (kernelRun0_A c i arg1 harg1 arg2 harg2 arg3 harg3 arg4 harg4 arg5 harg5 hc0 hc1 x0 x1 x2).1)

/-- The first point's stores cover the accumulator. -/
theorem scover0_A_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : cond0_0 i) (hc1 : ¬cond0_1 i) (x0 : Vec F S128x4096 .f32) (x1 : Vec F S4096x512 .f32) (x2 : Vec F S1x512 .f32) (y : S128x512.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S128x512.size (by sl_kernel_rfl) y

/-- What the first point leaves in the accumulator. -/
def sout0_A_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : cond0_0 i) (hc1 : ¬cond0_1 i) (x0 : Vec F S128x4096 .f32) (x1 : Vec F S4096x512 .f32) (x2 : Vec F S1x512 .f32) : Vec F S128x512 .f32 :=
  VS0_0.read (Elt F) (VS0_0.writes (Elt F) VS0_0.junk (kernelRun0_A c i arg1 harg1 arg2 harg2 arg3 harg3 arg4 harg4 arg5 harg5 hc0 hc1 x0 x1 x2).2.1)

/-- A middle point stores nothing into the output block either. -/
def out0_B_3 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : ¬cond0_1 i) (x0 : Vec F S128x4096 .f32) (x1 : Vec F S4096x512 .f32) (x2 : Vec F S1x512 .f32) (xs0 : Vec F S128x512 .f32) : Vec F S128x512 .f32 :=
  VO0_3.read (Elt F) (VO0_3.writes (Elt F) VO0_3.junk (kernelRun0_B c i arg1 harg1 arg2 harg2 arg3 harg3 arg4 harg4 arg5 harg5 hc0 hc1 x0 x1 x2 xs0).1)

theorem scover0_B_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : ¬cond0_1 i) (x0 : Vec F S128x4096 .f32) (x1 : Vec F S4096x512 .f32) (x2 : Vec F S1x512 .f32) (xs0 : Vec F S128x512 .f32) (y : S128x512.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S128x512.size (by sl_kernel_rfl) y

/-- What a middle point leaves in the accumulator. -/
def sout0_B_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : ¬cond0_1 i) (x0 : Vec F S128x4096 .f32) (x1 : Vec F S4096x512 .f32) (x2 : Vec F S1x512 .f32) (xs0 : Vec F S128x512 .f32) : Vec F S128x512 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- The last point's one store covers the output block. -/
theorem cover0_C_3 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) (y : S128x512.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S128x512.size (by sl_kernel_rfl) y

/-- What the last point leaves in the output block. -/
def out0_C_3 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) : Vec F S128x512 .f32 :=
  VO0_3.read (Elt F) (VO0_3.writes (Elt F) VO0_3.junk (kernelRun0_C c i arg1 harg1 arg2 harg2 arg3 harg3 arg4 harg4 arg5 harg5 hc0 hc1 x0 x1 x2 xs0).1)

theorem scover0_C_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) (y : S128x512.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S128x512.size (by sl_kernel_rfl) y

/-- What the last point leaves in the accumulator. -/
def sout0_C_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) : Vec F S128x512 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## The accumulation, point by point -/

theorem lt24 (t : Fin cfg0.N) : t.val < 24 := lt_of_lt_of_eq t.isLt (show cfg0.N = 24 from N_0)

theorem c0_of (t : Fin cfg0.N) (h : t.val % 24 = 0) : cond0_0 (grid0.coords t) := (hcond0_0 t).mpr h
theorem nc0_of (t : Fin cfg0.N) (h : ¬t.val % 24 = 0) : ¬cond0_0 (grid0.coords t) := fun h' => h ((hcond0_0 t).mp h')
theorem c1_of (t : Fin cfg0.N) (h : t.val % 24 = 23) : cond0_1 (grid0.coords t) := (hcond0_1 t).mpr h
theorem nc1_of (t : Fin cfg0.N) (h : ¬t.val % 24 = 23) : ¬cond0_1 (grid0.coords t) := fun h' => h ((hcond0_1 t).mp h')

/-- What the output block's buffer and the accumulator hold after the body at position `n`: the first point's case at 0,
    afterwards the last point's or a middle point's case over what the accumulator held after `n - 1`. -/
def outsAt0 (c : Dev nD) : (n : ℕ) → n < cfg0.N → Vec F S128x512 .f32 × Vec F S128x512 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of ⟨0, hn⟩ (Nat.zero_mod _)) (nc1_of ⟨0, hn⟩ (by dsimp only; omega)) (iblk m c 0 ⟨0, hn⟩) (iblk m c 1 ⟨0, hn⟩) (iblk m c 2 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of ⟨0, hn⟩ (Nat.zero_mod _)) (nc1_of ⟨0, hn⟩ (by dsimp only; omega)) (iblk m c 0 ⟨0, hn⟩) (iblk m c 1 ⟨0, hn⟩) (iblk m c 2 ⟨0, hn⟩))
  | n + 1, hn =>
    have hN : n + 1 < 24 := lt_of_lt_of_eq hn (show cfg0.N = 24 from N_0)
    if h1 : (n + 1) % 24 = 23 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of ⟨n + 1, hn⟩ (by dsimp only; omega)) (c1_of ⟨n + 1, hn⟩ h1) (iblk m c 0 ⟨n + 1, hn⟩) (iblk m c 1 ⟨n + 1, hn⟩) (iblk m c 2 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of ⟨n + 1, hn⟩ (by dsimp only; omega)) (c1_of ⟨n + 1, hn⟩ h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of ⟨n + 1, hn⟩ (by dsimp only; omega)) (nc1_of ⟨n + 1, hn⟩ h1) (iblk m c 0 ⟨n + 1, hn⟩) (iblk m c 1 ⟨n + 1, hn⟩) (iblk m c 2 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of ⟨n + 1, hn⟩ (by dsimp only; omega)) (nc1_of ⟨n + 1, hn⟩ h1) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 24 = 0) (h1 : ¬t.val % 24 = 23) :
    outsAt0 m c t.val t.isLt =
      (out0_A_3 c (grid0.coords t) (ms0_0 t) (hs0_0 t) (ms0_1 t) (hs0_1 t) (ms0_2 t) (hs0_2 t) (ms0_3 t) (hs0_3 t) scM0_0 (Memref.isWhole_whole _) (c0_of t h0) (nc1_of t h1) (iblk m c 0 t) (iblk m c 1 t) (iblk m c 2 t),
       sout0_A_0 c (grid0.coords t) (ms0_0 t) (hs0_0 t) (ms0_1 t) (hs0_1 t) (ms0_2 t) (hs0_2 t) (ms0_3 t) (hs0_3 t) scM0_0 (Memref.isWhole_whole _) (c0_of t h0) (nc1_of t h1) (iblk m c 0 t) (iblk m c 1 t) (iblk m c 2 t)) := by
  have hN := lt24 t
  obtain ⟨n, hn⟩ := t
  cases n with
  | zero => exact rfl
  | succ n => exfalso; dsimp only at h0 hN; omega

theorem outsAt0_B (c : Dev nD) (t : Fin cfg0.N) (h0 : ¬t.val % 24 = 0) (h1 : ¬t.val % 24 = 23) :
    outsAt0 m c t.val t.isLt =
      (out0_B_3 c (grid0.coords t) (ms0_0 t) (hs0_0 t) (ms0_1 t) (hs0_1 t) (ms0_2 t) (hs0_2 t) (ms0_3 t) (hs0_3 t) scM0_0 (Memref.isWhole_whole _) (nc0_of t h0) (nc1_of t h1) (iblk m c 0 t) (iblk m c 1 t) (iblk m c 2 t) (outsAt0 m c (t.val - 1) (Nat.lt_of_le_of_lt (Nat.sub_le _ _) t.isLt)).2,
       sout0_B_0 c (grid0.coords t) (ms0_0 t) (hs0_0 t) (ms0_1 t) (hs0_1 t) (ms0_2 t) (hs0_2 t) (ms0_3 t) (hs0_3 t) scM0_0 (Memref.isWhole_whole _) (nc0_of t h0) (nc1_of t h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 24 = 0) (h1 : t.val % 24 = 23) :
    outsAt0 m c t.val t.isLt =
      (out0_C_3 c (grid0.coords t) (ms0_0 t) (hs0_0 t) (ms0_1 t) (hs0_1 t) (ms0_2 t) (hs0_2 t) (ms0_3 t) (hs0_3 t) scM0_0 (Memref.isWhole_whole _) (nc0_of t h0) (c1_of t h1) (iblk m c 0 t) (iblk m c 1 t) (iblk m c 2 t) (outsAt0 m c (t.val - 1) (Nat.lt_of_le_of_lt (Nat.sub_le _ _) t.isLt)).2,
       sout0_C_0 c (grid0.coords t) (ms0_0 t) (hs0_0 t) (ms0_1 t) (hs0_1 t) (ms0_2 t) (hs0_2 t) (ms0_3 t) (hs0_3 t) scM0_0 (Memref.isWhole_whole _) (nc0_of t h0) (c1_of t h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region invariant before position `n`: before the first point the accumulator at anything; afterwards the
    accumulator at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's at
    the accumulation's first component; the invariant carrying the accumulator; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's position says which case it is in; the
    invariant hands the body the accumulator (at anything at the first point, at what the point before left afterwards) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 24 := lt24 t
  by_cases h1 : t.val % 24 = 23
  · have h0 : ¬t.val % 24 = 0 := by omega
    have hz : t.val ≠ 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t (c1_of t h1)], after0_3]
    rw [outsAt0_C m c t h0 h1]
    unfold out0_C_3 sout0_C_0; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩⟩
    iapply ((kernelRun0_C c (grid0.coords t) _ _ _ _ _ _ _ _ _ _ (nc0_of t h0) (c1_of t h1) (iblk m c 0 t) (iblk m c 1 t) (iblk m c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · by_cases h0 : t.val % 24 = 0
    · have hz : t.val = 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (nc1_of t h1)) (noFlush0_3 t (nc1_of t h1))]
      rw [outsAt0_A m c t h0 h1]
      unfold sout0_A_0; (try dsimp only)
      rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ (c0_of t h0) (nc1_of t h1) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · have hz : t.val ≠ 0 := fun e => h0 (by rw [e])
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (nc1_of t h1)) (noFlush0_3 t (nc1_of t h1))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (nc0_of t h0) (nc1_of t h1) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 24 := N_0; omega)

/-! ## The run -/

set_option maxHeartbeats 8000000 in
set_option backward.isDefEq.respectTransparency.types false in
/-- Every weakly fair execution of @main terminates, nothing faulting; every array a window stages ends at what the proof
    data computes and every other unscoped buffer at what the host lines after the region leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

end Cert.Kernel.Gen

end
-- ==== Proof.KBClaim.lean ====
/-
  The frame claim from the run: the four argument arrays end as launched. Three of them (the images, the labels, the bias) are
  staged by no window and written by no host line, before or after the region; the weight matrix is an input window's array,
  which the pipeline only reads.
-/
import proofs.«164070_j32693291057655_1_alg».proof.Proof.KBFrame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, hostOps1_1, hostOps1_2, main_call0_call0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, hostOps1_1, hostOps1_2, main_call0_call0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, hostOps1_1, hostOps1_2, main_call0_call0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-- Every weakly fair execution of @main terminates without a fault and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c)⟩) (run_main m ρ)

end Cert.Kernel.Gen

end
-- ==== Proof.KIKit.lean ====
/-
  The kernel's frame, shared part: the buffer contents the pallas region is entered with (after the two reshapes that
  precede it), @main as host lines – region – host lines, the facts about the 68 host lines that follow the region (they
  touch unscoped TensorCore buffers only, allocate nothing, and write none of the four arrays the windows stage), the
  windows' blocks, the body's two branch conditions in closed form over the 24 grid points (the accumulator is reset at
  point 0 only, the output is stored at point 23 only), where the output window is idle, and the staging memrefs.
-/
import proofs.«164070_j32693291057655_1_alg».proof.Proof.Gen.KernelIdeal.Launch
import proofs.«164070_j32693291057655_1_alg».proof.Proof.Gen.KernelIdeal.Skeleton
import proofs.«164070_j32693291057655_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The host lines after the region, in their three stretches. -/
abbrev tailOps : List (List (HloOp τ sig (Elt F))) := [hostOps1, hostOps1_1, hostOps1_2]

/-- @main is the two reshapes, the region, then the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

theorem keeps_hostOps1 : ∀ op ∈ (hostOps1 : List (HloOp τ sig (Elt F))), ∀ w, Proc.devRef .tc (Pipeline.arrRef spec0 w) ∉ op.writes := by
  intro op hop
  simp only [hostOps1, main_call0_call0, List.mem_cons, List.mem_nil_iff, or_false] at hop
  rcases hop with rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem keeps_hostOps1_1 : ∀ op ∈ (hostOps1_1 : List (HloOp τ sig (Elt F))), ∀ w, Proc.devRef .tc (Pipeline.arrRef spec0 w) ∉ op.writes := by
  intro op hop
  simp only [hostOps1_1, main_call0_call0, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem keeps_hostOps1_2 : ∀ op ∈ (hostOps1_2 : List (HloOp τ sig (Elt F))), ∀ w, Proc.devRef .tc (Pipeline.arrRef spec0 w) ∉ op.writes := by
  intro op hop
  simp only [hostOps1_2, main_call0_call0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No later line writes an array a window stages: each writes only its own result buffer. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact keeps_hostOps1 op hop
  · exact keeps_hostOps1_1 op hop
  · exact keeps_hostOps1_2 op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first grid point" as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 24 = 0 :=
  (by decide +kernel : ∀ t : Fin grid0.N, cond0_0 (grid0.coords t) ↔ t.val % 24 = 0)

/-- "This is the last grid point" as the body computes it. -/
abbrev cond0_1 (i : grid0.Coords) : Prop := k0_cond2 i = 1#1
theorem hcond0_1 : ∀ t : Fin cfg0.N, cond0_1 (grid0.coords t) ↔ t.val % 24 = 23 :=
  (by decide +kernel : ∀ t : Fin grid0.N, cond0_1 (grid0.coords t) ↔ t.val % 24 = 23)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the body stores nothing into the output window and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the output window is live. -/
theorem liveAt0_3 : ∀ t : Fin cfg0.N, cond0_1 (grid0.coords t) → cfg0.idle 3 (grid0.coords t) = false := by decide +kernel

/-! ## The memrefs the body is called with -/

abbrev VO0_3 : View sig .tc .vmem S128x512 .f32 := (Memref.whole cc0_stg3_0 : Memref sig .tc .vmem S128x512 .f32).view
abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S128x512 .f32 := Memref.whole cc0_scratch0
abbrev VS0_0 : View sig .tc .vmem S128x512 .f32 := scM0_0.view

/-- What the region may use beside its windows: the accumulator, owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KIRuns.lean ====
/-
  The kernel body run once per control case, on whole staging memrefs. The 24 grid points fall into three cases: the
  first point (the accumulator is zeroed, then the point's product is added to it), the middle points (the product is added),
  and the last point (the product is added, then the accumulator plus the bias row is stored into the output block). Each run
  hands back the input buffers as found and the buffers it stored into with its stores recorded as pieces; the pieces are
  found by the symbolic execution.
-/
import proofs.«164070_j32693291057655_1_alg».proof.Proof.KIKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point: the accumulator, found at anything, is zeroed and the product added; the output buffer is untouched. -/
noncomputable def kernelRun0_A (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : cond0_0 i) (hc1 : ¬cond0_1 i)
    (x0 : Vec F S128x4096 .f32) (x1 : Vec F S4096x512 .f32) (x2 : Vec F S1x512 .f32) :
    Σ' (L3 : List (View.Piece (Elt F) S128x512 .f32)), { LS0 : List (View.Piece (Elt F) S128x512 .f32) //
      ∀ (xi3 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- A middle point: the product is added to the accumulator, found at what the point before left; the output buffer is untouched. -/
noncomputable def kernelRun0_B (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : ¬cond0_1 i)
    (x0 : Vec F S128x4096 .f32) (x1 : Vec F S4096x512 .f32) (x2 : Vec F S1x512 .f32) (xs0 : Vec F S128x512 .f32) :
    Σ' (L3 : List (View.Piece (Elt F) S128x512 .f32)), { LS0 : List (View.Piece (Elt F) S128x512 .f32) //
      ∀ (xi3 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- The last point: the product is added to the accumulator, and the accumulator plus the bias row is stored into the output
    buffer, found at anything. -/
noncomputable def kernelRun0_C (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i)
    (x0 : Vec F S128x4096 .f32) (x1 : Vec F S4096x512 .f32) (x2 : Vec F S1x512 .f32) (xs0 : Vec F S128x512 .f32) :
    Σ' (L3 : List (View.Piece (Elt F) S128x512 .f32)), { LS0 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Gen

end
-- ==== Proof.KIFrame.lean ====
/-
  The kernel's frame: what each control case leaves in the accumulator and in the output block (its stores read back), the
  accumulation point by point over the 24 grid points, the region invariant that carries the accumulator from one point to
  the next, the pipeline's proof data, the body obligation at every point, and the run of @main: it terminates without a
  fault, every array a window stages ends at what the proof data computes, and every other buffer at what the host lines
  after the region leave.
-/
import proofs.«164070_j32693291057655_1_alg».proof.Proof.KIRuns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point stores nothing into the output block: a placeholder nothing consults (the window is idle there). -/
def out0_A_3 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : cond0_0 i) (hc1 : ¬cond0_1 i) (x0 : Vec F S128x4096 .f32) (x1 : Vec F S4096x512 .f32) (x2 : Vec F S1x512 .f32) : Vec F S128x512 .f32 :=
  VO0_3.read (Elt F) (VO0_3.writes (Elt F) VO0_3.junk (kernelRun0_A c i arg1 harg1 arg2 harg2 arg3 harg3 arg4 harg4 arg5 harg5 hc0 hc1 x0 x1 x2).1)

/-- The first point's stores cover the accumulator. -/
theorem scover0_A_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : cond0_0 i) (hc1 : ¬cond0_1 i) (x0 : Vec F S128x4096 .f32) (x1 : Vec F S4096x512 .f32) (x2 : Vec F S1x512 .f32) (y : S128x512.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S128x512.size (by sl_kernel_rfl) y

/-- What the first point leaves in the accumulator. -/
def sout0_A_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : cond0_0 i) (hc1 : ¬cond0_1 i) (x0 : Vec F S128x4096 .f32) (x1 : Vec F S4096x512 .f32) (x2 : Vec F S1x512 .f32) : Vec F S128x512 .f32 :=
  VS0_0.read (Elt F) (VS0_0.writes (Elt F) VS0_0.junk (kernelRun0_A c i arg1 harg1 arg2 harg2 arg3 harg3 arg4 harg4 arg5 harg5 hc0 hc1 x0 x1 x2).2.1)

/-- A middle point stores nothing into the output block either. -/
def out0_B_3 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : ¬cond0_1 i) (x0 : Vec F S128x4096 .f32) (x1 : Vec F S4096x512 .f32) (x2 : Vec F S1x512 .f32) (xs0 : Vec F S128x512 .f32) : Vec F S128x512 .f32 :=
  VO0_3.read (Elt F) (VO0_3.writes (Elt F) VO0_3.junk (kernelRun0_B c i arg1 harg1 arg2 harg2 arg3 harg3 arg4 harg4 arg5 harg5 hc0 hc1 x0 x1 x2 xs0).1)

theorem scover0_B_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : ¬cond0_1 i) (x0 : Vec F S128x4096 .f32) (x1 : Vec F S4096x512 .f32) (x2 : Vec F S1x512 .f32) (xs0 : Vec F S128x512 .f32) (y : S128x512.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S128x512.size (by sl_kernel_rfl) y

/-- What a middle point leaves in the accumulator. -/
def sout0_B_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : ¬cond0_1 i) (x0 : Vec F S128x4096 .f32) (x1 : Vec F S4096x512 .f32) (x2 : Vec F S1x512 .f32) (xs0 : Vec F S128x512 .f32) : Vec F S128x512 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- The last point's one store covers the output block. -/
theorem cover0_C_3 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) (y : S128x512.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S128x512.size (by sl_kernel_rfl) y

/-- What the last point leaves in the output block. -/
def out0_C_3 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) : Vec F S128x512 .f32 :=
  VO0_3.read (Elt F) (VO0_3.writes (Elt F) VO0_3.junk (kernelRun0_C c i arg1 harg1 arg2 harg2 arg3 harg3 arg4 harg4 arg5 harg5 hc0 hc1 x0 x1 x2 xs0).1)

theorem scover0_C_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) (y : S128x512.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S128x512.size (by sl_kernel_rfl) y

/-- What the last point leaves in the accumulator. -/
def sout0_C_0 (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) : Vec F S128x512 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## The accumulation, point by point -/

theorem lt24 (t : Fin cfg0.N) : t.val < 24 := lt_of_lt_of_eq t.isLt (show cfg0.N = 24 from N_0)

theorem c0_of (t : Fin cfg0.N) (h : t.val % 24 = 0) : cond0_0 (grid0.coords t) := (hcond0_0 t).mpr h
theorem nc0_of (t : Fin cfg0.N) (h : ¬t.val % 24 = 0) : ¬cond0_0 (grid0.coords t) := fun h' => h ((hcond0_0 t).mp h')
theorem c1_of (t : Fin cfg0.N) (h : t.val % 24 = 23) : cond0_1 (grid0.coords t) := (hcond0_1 t).mpr h
theorem nc1_of (t : Fin cfg0.N) (h : ¬t.val % 24 = 23) : ¬cond0_1 (grid0.coords t) := fun h' => h ((hcond0_1 t).mp h')

/-- What the output block's buffer and the accumulator hold after the body at position `n`: the first point's case at 0,
    afterwards the last point's or a middle point's case over what the accumulator held after `n - 1`. -/
def outsAt0 (c : Dev nD) : (n : ℕ) → n < cfg0.N → Vec F S128x512 .f32 × Vec F S128x512 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of ⟨0, hn⟩ (Nat.zero_mod _)) (nc1_of ⟨0, hn⟩ (by dsimp only; omega)) (iblk m c 0 ⟨0, hn⟩) (iblk m c 1 ⟨0, hn⟩) (iblk m c 2 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of ⟨0, hn⟩ (Nat.zero_mod _)) (nc1_of ⟨0, hn⟩ (by dsimp only; omega)) (iblk m c 0 ⟨0, hn⟩) (iblk m c 1 ⟨0, hn⟩) (iblk m c 2 ⟨0, hn⟩))
  | n + 1, hn =>
    have hN : n + 1 < 24 := lt_of_lt_of_eq hn (show cfg0.N = 24 from N_0)
    if h1 : (n + 1) % 24 = 23 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of ⟨n + 1, hn⟩ (by dsimp only; omega)) (c1_of ⟨n + 1, hn⟩ h1) (iblk m c 0 ⟨n + 1, hn⟩) (iblk m c 1 ⟨n + 1, hn⟩) (iblk m c 2 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of ⟨n + 1, hn⟩ (by dsimp only; omega)) (c1_of ⟨n + 1, hn⟩ h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of ⟨n + 1, hn⟩ (by dsimp only; omega)) (nc1_of ⟨n + 1, hn⟩ h1) (iblk m c 0 ⟨n + 1, hn⟩) (iblk m c 1 ⟨n + 1, hn⟩) (iblk m c 2 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of ⟨n + 1, hn⟩ (by dsimp only; omega)) (nc1_of ⟨n + 1, hn⟩ h1) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 24 = 0) (h1 : ¬t.val % 24 = 23) :
    outsAt0 m c t.val t.isLt =
      (out0_A_3 c (grid0.coords t) (ms0_0 t) (hs0_0 t) (ms0_1 t) (hs0_1 t) (ms0_2 t) (hs0_2 t) (ms0_3 t) (hs0_3 t) scM0_0 (Memref.isWhole_whole _) (c0_of t h0) (nc1_of t h1) (iblk m c 0 t) (iblk m c 1 t) (iblk m c 2 t),
       sout0_A_0 c (grid0.coords t) (ms0_0 t) (hs0_0 t) (ms0_1 t) (hs0_1 t) (ms0_2 t) (hs0_2 t) (ms0_3 t) (hs0_3 t) scM0_0 (Memref.isWhole_whole _) (c0_of t h0) (nc1_of t h1) (iblk m c 0 t) (iblk m c 1 t) (iblk m c 2 t)) := by
  have hN := lt24 t
  obtain ⟨n, hn⟩ := t
  cases n with
  | zero => exact rfl
  | succ n => exfalso; dsimp only at h0 hN; omega

theorem outsAt0_B (c : Dev nD) (t : Fin cfg0.N) (h0 : ¬t.val % 24 = 0) (h1 : ¬t.val % 24 = 23) :
    outsAt0 m c t.val t.isLt =
      (out0_B_3 c (grid0.coords t) (ms0_0 t) (hs0_0 t) (ms0_1 t) (hs0_1 t) (ms0_2 t) (hs0_2 t) (ms0_3 t) (hs0_3 t) scM0_0 (Memref.isWhole_whole _) (nc0_of t h0) (nc1_of t h1) (iblk m c 0 t) (iblk m c 1 t) (iblk m c 2 t) (outsAt0 m c (t.val - 1) (Nat.lt_of_le_of_lt (Nat.sub_le _ _) t.isLt)).2,
       sout0_B_0 c (grid0.coords t) (ms0_0 t) (hs0_0 t) (ms0_1 t) (hs0_1 t) (ms0_2 t) (hs0_2 t) (ms0_3 t) (hs0_3 t) scM0_0 (Memref.isWhole_whole _) (nc0_of t h0) (nc1_of t h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 24 = 0) (h1 : t.val % 24 = 23) :
    outsAt0 m c t.val t.isLt =
      (out0_C_3 c (grid0.coords t) (ms0_0 t) (hs0_0 t) (ms0_1 t) (hs0_1 t) (ms0_2 t) (hs0_2 t) (ms0_3 t) (hs0_3 t) scM0_0 (Memref.isWhole_whole _) (nc0_of t h0) (c1_of t h1) (iblk m c 0 t) (iblk m c 1 t) (iblk m c 2 t) (outsAt0 m c (t.val - 1) (Nat.lt_of_le_of_lt (Nat.sub_le _ _) t.isLt)).2,
       sout0_C_0 c (grid0.coords t) (ms0_0 t) (hs0_0 t) (ms0_1 t) (hs0_1 t) (ms0_2 t) (hs0_2 t) (ms0_3 t) (hs0_3 t) scM0_0 (Memref.isWhole_whole _) (nc0_of t h0) (c1_of t h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region invariant before position `n`: before the first point the accumulator at anything; afterwards the
    accumulator at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's at
    the accumulation's first component; the invariant carrying the accumulator; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's position says which case it is in; the
    invariant hands the body the accumulator (at anything at the first point, at what the point before left afterwards) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 24 := lt24 t
  by_cases h1 : t.val % 24 = 23
  · have h0 : ¬t.val % 24 = 0 := by omega
    have hz : t.val ≠ 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t (c1_of t h1)], after0_3]
    rw [outsAt0_C m c t h0 h1]
    unfold out0_C_3 sout0_C_0; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩⟩
    iapply ((kernelRun0_C c (grid0.coords t) _ _ _ _ _ _ _ _ _ _ (nc0_of t h0) (c1_of t h1) (iblk m c 0 t) (iblk m c 1 t) (iblk m c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · by_cases h0 : t.val % 24 = 0
    · have hz : t.val = 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (nc1_of t h1)) (noFlush0_3 t (nc1_of t h1))]
      rw [outsAt0_A m c t h0 h1]
      unfold sout0_A_0; (try dsimp only)
      rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ (c0_of t h0) (nc1_of t h1) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · have hz : t.val ≠ 0 := fun e => h0 (by rw [e])
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (nc1_of t h1)) (noFlush0_3 t (nc1_of t h1))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (nc0_of t h0) (nc1_of t h1) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 24 := N_0; omega)

/-! ## The run -/

set_option maxHeartbeats 8000000 in
set_option backward.isDefEq.respectTransparency.types false in
/-- Every weakly fair execution of @main terminates, nothing faulting; every array a window stages ends at what the proof
    data computes and every other unscoped buffer at what the host lines after the region leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

end Cert.KernelIdeal.Gen

end
-- ==== Proof.KIClaim.lean ====
/-
  The frame claim from the run: the four argument arrays end as launched. Three of them (the images, the labels, the bias) are
  staged by no window and written by no host line, before or after the region; the weight matrix is an input window's array,
  which the pipeline only reads.
-/
import proofs.«164070_j32693291057655_1_alg».proof.Proof.KIFrame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, hostOps1_1, hostOps1_2, main_call0_call0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, hostOps1_1, hostOps1_2, main_call0_call0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, hostOps1_1, hostOps1_2, main_call0_call0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-- Every weakly fair execution of @main terminates without a fault and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c)⟩) (run_main m ρ)

end Cert.KernelIdeal.Gen

end
-- ==== Proof.EmbedDefs.lean ====
/-
  The blocks of the tiled contraction, as index functions, and the accumulator after each grid point.

  The matrix product e = x2 · W of a [128, 98304] by a [98304, 512] matrix is computed by cutting the contraction
  axis into 24 blocks of 4096 columns (rows, for W): block t of x2 is its columns 4096 t … 4096 t + 4095, block t of W
  its rows of the same numbers. The accumulator starts at zero and, block after block, adds the product of the two
  blocks. This module names the blocks, the accumulator after t blocks, and reads the three payloads of the body
  (reset, accumulate, add the bias row) at an index.
-/
import proofs.«164070_j32693291057655_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Embed

open Idealize.ShloMosaic Idealize.ShloMosaic.ValueIdx Cert.KernelIdeal Cert.KernelIdeal.Gen

/-- Position `j` of block `t` on the contraction axis: `4096 t + j`. -/
def col (t : Fin 24) (j : Fin 4096) : Fin 98304 := ⟨4096 * t.val + j.val, by have := t.isLt; have := j.isLt; omega⟩

@[simp] theorem col_val (t : Fin 24) (j : Fin 4096) : (col t j).val = 4096 * t.val + j.val := rfl

/-- Block `t` of the left matrix: its columns `4096 t … 4096 t + 4095`. -/
def xblk (x2 : FVec Ideal S128x98304 .f32) (t : Fin 24) : FVec Ideal S128x4096 .f32 :=
  fun j => x2 (ix2 (n0 := 128) (n1 := 98304) (j 0) (col t (j 1)))

/-- Block `t` of the right matrix: its rows `4096 t … 4096 t + 4095`. -/
def wblk (W : FVec Ideal S98304x512 .f32) (t : Fin 24) : FVec Ideal S4096x512 .f32 :=
  fun j => W (ix2 (n0 := 98304) (n1 := 512) (col t (j 0)) (j 1))

theorem xblk_apply (x2 : FVec Ideal S128x98304 .f32) (t : Fin 24) (r : Fin 128) (j : Fin 4096) :
    xblk x2 t (ix2 r j) = x2 (ix2 r (col t j)) := rfl

theorem wblk_apply (W : FVec Ideal S98304x512 .f32) (t : Fin 24) (j : Fin 4096) (d : Fin 512) :
    wblk W t (ix2 j d) = W (ix2 (col t j) d) := rfl

/-- The accumulator after `t` blocks: zero, then one block's product added per step (no further change after the
    24th, the last block). -/
def accAt (x2 : FVec Ideal S128x98304 .f32) (W : FVec Ideal S98304x512 .f32) : Nat → FVec Ideal S128x512 .f32
  | 0 => k0_pay1 (F := Ideal)
  | t + 1 => if h : t < 24 then k0_pay2 (xblk x2 ⟨t, h⟩) (wblk W ⟨t, h⟩) (accAt x2 W t) else accAt x2 W t

theorem accAt_zero (x2 : FVec Ideal S128x98304 .f32) (W : FVec Ideal S98304x512 .f32) :
    accAt x2 W 0 = k0_pay1 (F := Ideal) := rfl

theorem accAt_succ (x2 : FVec Ideal S128x98304 .f32) (W : FVec Ideal S98304x512 .f32) (t : Fin 24) :
    accAt x2 W (t.val + 1) = k0_pay2 (xblk x2 t) (wblk W t) (accAt x2 W t.val) := by
  show (if h : t.val < 24 then k0_pay2 (xblk x2 ⟨t.val, h⟩) (wblk W ⟨t.val, h⟩) (accAt x2 W t.val) else accAt x2 W t.val) = _
  rw [dif_pos t.isLt]

/-- The product of block `k` of the two matrices at `(r, d)`: the part of the contraction the `k`-th grid point adds. -/
def blockDot (x2 : FVec Ideal S128x98304 .f32) (W : FVec Ideal S98304x512 .f32) (r : Fin 128) (d : Fin 512) (k : Fin 24) : EReal :=
  ∑ j : Fin 4096, x2 (ix2 r (col k j)) * W (ix2 (col k j) d)

end Cert.Embed

end
-- ==== Proof.EmbedSum.lean ====
/-
  Regrouping a sum over a product range into blocks.

  A sum over the positions `0 … m n − 1` is the sum, over the `m` blocks of `n` consecutive positions, of each block's
  sum: position `f` is `n k + j` for exactly one block `k` and one place `j` in the block. Only the commutative monoid
  structure of the values is used.
-/
import Idealize.ShloMosaic.Lib.ValueIdx

open scoped BigOperators

namespace Cert.Embed

/-- Position `j` of block `k`, of `m` blocks of `n`, is below `m n`. -/
theorem blk_lt {m n : ℕ} (k : Fin m) (j : Fin n) : n * k.val + j.val < m * n := by
  have hk := k.isLt; have hj := j.isLt
  calc n * k.val + j.val < n * k.val + n := by omega
    _ = n * (k.val + 1) := by ring
    _ ≤ n * m := Nat.mul_le_mul_left _ hk
    _ = m * n := Nat.mul_comm _ _

/-- A sum over `m n` positions is the sum over the `m` blocks of the sums over each block's `n` positions. -/
theorem sum_fin_blocks {M : Type*} [AddCommMonoid M] (m n N : ℕ) (hN : N = m * n) (g : Fin N → M) :
    ∑ f : Fin N, g f = ∑ k : Fin m, ∑ j : Fin n, g ⟨n * k.val + j.val, hN ▸ blk_lt k j⟩ := by
  subst hN
  rw [← Equiv.sum_comp finProdFinEquiv g, Fintype.sum_prod_type]
  refine Finset.sum_congr rfl fun k _ => Finset.sum_congr rfl fun j _ => congrArg g (Fin.ext ?_)
  show j.val + n * k.val = n * k.val + j.val
  exact Nat.add_comm _ _

end Cert.Embed
-- ==== Proof.EmbedAcc.lean ====
/-
  The accumulator of the tiled contraction, read at an index.

  The three payloads of the body at an index `(r, d)` of the [128, 512] accumulator: the reset value is `0`; one
  accumulation step adds to the old entry the sum, over the 4096 positions of the block, of the products of the left
  block's row `r` and the right block's column `d` (the product into the zero constant is that sum, and the change of
  format of the operands is the identity on the extended reals); the last step adds the bias row's entry `d`.
  Hence the accumulator after `t` blocks is the sum of the first `t` block products, and after all 24 blocks the full
  contraction `∑ f < 98304, x2[r, f] · W[f, d]`: the blocks partition the contraction axis. Only `0 + a = a` and the
  commutativity and associativity of addition on the extended reals are used.
-/
import proofs.«164070_j32693291057655_1_alg».proof.Proof.EmbedDefs
import proofs.«164070_j32693291057655_1_alg».proof.Proof.EmbedSum

noncomputable section

open scoped BigOperators

namespace Cert.Embed

open Idealize.ShloMosaic Idealize.ShloMosaic.ValueIdx Cert.KernelIdeal Cert.KernelIdeal.Gen

/-- The reset value of the accumulator is zero everywhere. -/
theorem k0_pay1_apply (i : S128x512.Idx) : k0_pay1 (F := Ideal) i = 0 := by
  unfold k0_pay1
  simp only [shapeCast_self]
  show Ideal.ofBits .f32 0x00000000#32 = 0
  exact Ideal.ofBits_zero_f32

/-- The dimension numbers of one block product: [128, 4096] times [4096, 512], contracting the 4096 axis. -/
abbrev Dk := dot_S128x4096_S4096x512_S128x512_1_0_0_1_n_n

/-- One accumulation step at `(r, d)`: the old entry plus the block's row-by-column sum of products. -/
theorem k0_pay2_apply (v3 : FVec Ideal S128x4096 .f32) (v6 : FVec Ideal S4096x512 .f32) (v8 : FVec Ideal S128x512 .f32)
    (r : Fin 128) (d : Fin 512) :
    k0_pay2 v3 v6 v8 (ix2 r d) = v8 (ix2 r d) + ∑ j : Fin 4096, v3 (ix2 r j) * v6 (ix2 j d) := by
  unfold k0_pay2
  simp only [shapeCast_self]
  rw [addf_apply]
  refine congrArg (fun c : EReal => v8 (ix2 r d) + c) ?_
  simp only [matmul]
  rw [Ideal.matmul_constant_zero_apply]
  rw [← Equiv.sum_comp (contrEquiv1 Dk 4096 rfl rfl).symm]
  refine Finset.sum_congr rfl fun j _ => ?_
  rw [truncf_apply, truncf_apply]
  have hl : Dk.lhsIdx (ix2 r d) ((contrEquiv1 Dk 4096 rfl rfl).symm j) = ix2 r j := by
    funext a; refine Fin.ext ?_
    match a with
    | ⟨0, _⟩ => rfl
    | ⟨1, _⟩ => exact (Dk.lhsIdx_val_of_single (cl := 1) rfl _ _).trans (contrEquiv1_symm_val Dk 4096 rfl rfl j)
  have hr : Dk.rhsIdx (ix2 r d) ((contrEquiv1 Dk 4096 rfl rfl).symm j) = ix2 j d := by
    funext a; refine Fin.ext ?_
    match a with
    | ⟨0, _⟩ => exact (Dk.rhsIdx_val_of_single (cr := 0) rfl _ _).trans (contrEquiv1_symm_val Dk 4096 rfl rfl j)
    | ⟨1, _⟩ => rfl
  exact congrArg₂ (· * ·) (congrArg v3 hl) (congrArg v6 hr)

/-- The last step at `(r, d)`: the accumulated entry plus entry `d` of the bias row. -/
theorem k0_pay3_apply (v17 : FVec Ideal S128x512 .f32) (v18 : FVec Ideal S1x512 .f32) (r : Fin 128) (d : Fin 512) :
    k0_pay3 v17 v18 (ix2 r d) = v17 (ix2 r d) + v18 (ix2 (0 : Fin 1) d) := by
  unfold k0_pay3
  simp only [shapeCast_self]
  rw [addf_apply, broadcastTo_1b_ab_apply]

/-- The accumulator after `t` blocks at `(r, d)`: the sum of the block products of the blocks before `t`. -/
theorem accAt_apply (x2 : FVec Ideal S128x98304 .f32) (W : FVec Ideal S98304x512 .f32) (t : Nat) (r : Fin 128) (d : Fin 512) :
    accAt x2 W t (ix2 r d) = ∑ k ∈ (Finset.univ : Finset (Fin 24)).filter (fun k => k.val < t), blockDot x2 W r d k := by
  induction t with
  | zero =>
    rw [accAt_zero, k0_pay1_apply]
    rw [Finset.filter_false_of_mem (fun k _ => Nat.not_lt_zero _), Finset.sum_empty]
  | succ t ih =>
    by_cases h : t < 24
    · rw [accAt_succ x2 W ⟨t, h⟩, k0_pay2_apply, ih]
      have hset : (Finset.univ : Finset (Fin 24)).filter (fun k => k.val < t + 1)
          = insert (⟨t, h⟩ : Fin 24) ((Finset.univ : Finset (Fin 24)).filter (fun k => k.val < t)) := by
        ext k
        simp only [Finset.mem_filter, Finset.mem_univ, true_and, Finset.mem_insert, Fin.ext_iff]
        omega
      rw [hset, Finset.sum_insert (by simp), add_comm]
      rfl
    · have e : accAt x2 W (t + 1) = accAt x2 W t := by
        show (if h : t < 24 then k0_pay2 (xblk x2 ⟨t, h⟩) (wblk W ⟨t, h⟩) (accAt x2 W t) else accAt x2 W t) = _
        rw [dif_neg h]
      rw [e, ih]
      refine Finset.sum_congr (Finset.filter_congr fun k _ => ?_) fun _ _ => rfl
      have := k.isLt
      omega

/-- After all 24 blocks the accumulator holds the whole contraction. -/
theorem accAt_last_apply (x2 : FVec Ideal S128x98304 .f32) (W : FVec Ideal S98304x512 .f32) (r : Fin 128) (d : Fin 512) :
    accAt x2 W 24 (ix2 r d) = ∑ f : Fin 98304, x2 (ix2 r f) * W (ix2 f d) := by
  rw [accAt_apply, Finset.filter_true_of_mem (fun k _ => k.isLt)]
  rw [sum_fin_blocks 24 4096 98304 (by norm_num) (fun f => x2 (ix2 r f) * W (ix2 f d))]
  rfl

end Cert.Embed

end
-- ==== Proof.Embed.lean ====
/-
  The tiled accumulation is the reference's one contraction.

  At an index `(bb, n, d)` of the [32, 4, 512] result both sides are `(∑ f < 98304, x[bb, n, f] · W[f, d]) + b[d]`.
  The kernel's side is row `4 bb + n` of its [128, 512] result (the reshape keeps row-major positions), which is
  the accumulator after the 24 blocks plus the bias row; the reference's side is the contraction over the last axis
  of the [32, 4, 98304] reshape of the input, plus the bias broadcast along the two leading axes. The two reshapes of the
  input read the same entry, since `(bb, n, f)` and `(4 bb + n, f)` have the same row-major position.
-/
import proofs.«164070_j32693291057655_1_alg».proof.Proof.EmbedAcc
import proofs.«164070_j32693291057655_1_alg».proof.Proof.Gen.ReferenceIdeal

noncomputable section

open scoped BigOperators

namespace Cert.Embed

open Idealize.ShloMosaic Idealize.ShloMosaic.ValueIdx Cert.KernelIdeal Cert.KernelIdeal.Gen

/-- The reference's dimension numbers: [32, 4, 98304] times [98304, 512], contracting the 98304 axis. -/
abbrev Dr := Cert.ReferenceIdeal.dot_S32x4x98304_S98304x512_S32x4x512_2_0_01_1_n_n

/-- Row `4 bb + n` of the [128, …] arrangement holds entry `(bb, n)` of the [32, 4, …] one. -/
def row (bb : Fin 32) (n : Fin 4) : Fin 128 := ⟨4 * bb.val + n.val, by have := bb.isLt; have := n.isLt; omega⟩

@[simp] theorem row_val (bb : Fin 32) (n : Fin 4) : (row bb n).val = 4 * bb.val + n.val := rfl

/-- The two reshapes of the input, to [32, 4, 98304] and to [128, 98304], read the same entry at `(bb, n, f)` and at
    `(4 bb + n, f)`: both positions are `(4 bb + n) · 98304 + f` in row-major order. -/
theorem x3_eq_x2 (x : FVec Ideal S32x4x3x256x128 .f32) (bb : Fin 32) (n : Fin 4) (f : Fin 98304) :
    shapeCast Cert.ReferenceIdeal.S32x4x98304 x Cert.ReferenceIdeal.Gen.shapeCasts_S32x4x3x256x128_S32x4x98304 (ix3 bb n f)
      = shapeCast S128x98304 x shapeCasts_S32x4x3x256x128_S128x98304 (ix2 (row bb n) f) := by
  unfold shapeCast
  refine congrArg x (Shape.reshapeEquiv_eq_of_rowMajor _ ?_)
  rw [Shape.rowMajor_reshapeEquiv, Shape.rowMajor_val_two, Shape.rowMajor_val_three]
  show (4 * bb.val + n.val) * 98304 + f.val = (bb.val * 4 + n.val) * 98304 + f.val
  omega

/-- The kernel's embedding (24 accumulated block products, plus the bias row, reshaped to [32, 4, 512]) is the
    reference's (one contraction plus the broadcast bias). -/
theorem embed_eq (x : FVec Ideal S32x4x3x256x128 .f32) (W : FVec Ideal S98304x512 .f32) (b : FVec Ideal S512 .f32) :
    shapeCast S32x4x512
        (k0_pay3 (accAt (shapeCast S128x98304 x shapeCasts_S32x4x3x256x128_S128x98304) W 24)
          (shapeCast S1x512 b shapeCasts_S512_S1x512))
        shapeCasts_S128x512_S32x4x512
      = addf
          (Host.dotGeneral Cert.ReferenceIdeal.dot_S32x4x98304_S98304x512_S32x4x512_2_0_01_1_n_n none
            (shapeCast Cert.ReferenceIdeal.S32x4x98304 x Cert.ReferenceIdeal.Gen.shapeCasts_S32x4x3x256x128_S32x4x98304) W)
          (broadcastInDim Cert.ReferenceIdeal.S32x4x512 ![0, 1, 2] Cert.ReferenceIdeal.Gen.bcast_S1x1x512_S32x4x512_0_1_2
            (broadcastInDim Cert.ReferenceIdeal.S1x1x512 ![2] Cert.ReferenceIdeal.Gen.bcast_S512_S1x1x512_2 b)) := by
  funext i
  obtain ⟨bb, n, d, rfl⟩ : ∃ (bb : Fin 32) (n : Fin 4) (d : Fin 512), i = ix3 bb n d := ⟨i 0, i 1, i 2, eq_ix3 i⟩
  -- the kernel's side: row 4 bb + n of the [128, 512] result
  refine (shapeCast_apply _ shapeCasts_S128x512_S32x4x512 (ix3 bb n d) (ix2 (row bb n) d) (by
    rw [Shape.rowMajor_val_two, Shape.rowMajor_val_three]
    show (4 * bb.val + n.val) * 512 + d.val = (bb.val * 4 + n.val) * 512 + d.val
    omega)).trans ?_
  rw [k0_pay3_apply, accAt_last_apply, shapeCast_a_1a_apply]
  -- the reference's side
  rw [addf_apply]
  refine congrArg₂ (fun a c : EReal => a + c) ?_ ?_
  · simp only [Host.dotGeneral]
    rw [Ideal.dotGeneral_apply, ← Equiv.sum_comp (contrEquiv1 Dr 98304 rfl rfl).symm]
    refine Finset.sum_congr rfl fun f _ => ?_
    have hl : Dr.lhsIdx (ix3 bb n d) ((contrEquiv1 Dr 98304 rfl rfl).symm f) = ix3 bb n f := by
      funext a; refine Fin.ext ?_
      match a with
      | ⟨0, _⟩ => rfl
      | ⟨1, _⟩ => rfl
      | ⟨2, _⟩ => exact (Dr.lhsIdx_val_of_single (cl := 2) rfl _ _).trans (contrEquiv1_symm_val Dr 98304 rfl rfl f)
    have hr : Dr.rhsIdx (ix3 bb n d) ((contrEquiv1 Dr 98304 rfl rfl).symm f) = ix2 f d := by
      funext a; refine Fin.ext ?_
      match a with
      | ⟨0, _⟩ => exact (Dr.rhsIdx_val_of_single (cr := 0) rfl _ _).trans (contrEquiv1_symm_val Dr 98304 rfl rfl f)
      | ⟨1, _⟩ => rfl
    rw [hl, hr, x3_eq_x2]
  · refine ((broadcastInDim_apply _ _ _ (ix3 bb n d) (ix3 (0 : Fin 1) (0 : Fin 1) d) fun a => ?_).trans
      (broadcastInDim_apply _ _ _ (ix3 (0 : Fin 1) (0 : Fin 1) d) (ix1 d) fun a => ?_)).symm
    · match a with
      | ⟨0, _⟩ => rfl
      | ⟨1, _⟩ => rfl
      | ⟨2, _⟩ => rfl
    · match a with
      | ⟨0, _⟩ => rfl

end Cert.Embed

end
-- ==== Proof.ERef.lean ====
/-
  The reference's embedding: the flattened input contracted with the weight over the 98304 features, plus the bias
  broadcast along the two leading axes — the reference program's first five operations as one function of the three
  arrays they read.
-/
import proofs.«164070_j32693291057655_1_alg».proof.Proof.Gen.ReferenceIdeal
import Idealize.ShloMosaic.PureOps.Ideal

noncomputable section

namespace Cert.Ref

open Cert.ReferenceIdeal Cert.ReferenceIdeal.Gen Idealize.ShloMosaic

/-- `e = einsum('bnf,fd->bnd', reshape(x, [32, 4, 98304]), W) + b` at the ideal instance. -/
def eRef (x : FVec Ideal S32x4x3x256x128 .f32) (W : FVec Ideal S98304x512 .f32) (b : FVec Ideal S512 .f32) :
    FVec Ideal S32x4x512 .f32 :=
  addf (F := Ideal)
    (Host.dotGeneral dot_S32x4x98304_S98304x512_S32x4x512_2_0_01_1_n_n none
      (shapeCast S32x4x98304 x shapeCasts_S32x4x3x256x128_S32x4x98304) W)
    (broadcastInDim S32x4x512 ![0, 1, 2] bcast_S1x1x512_S32x4x512_0_1_2 (broadcastInDim S1x1x512 ![2] bcast_S512_S1x1x512_2 b))

end Cert.Ref

end
-- ==== Proof.EmbedRef.lean ====
/-
  The kernel's embedding is the reference's embedding `eRef`: the statement of the module Embed against the name the
  reference's value carries.
-/
import proofs.«164070_j32693291057655_1_alg».proof.Proof.Embed
import proofs.«164070_j32693291057655_1_alg».proof.Proof.ERef

noncomputable section

namespace Cert.Embed

open Idealize.ShloMosaic Cert.KernelIdeal Cert.KernelIdeal.Gen

/-- The 24 accumulated block products plus the bias row, reshaped to [32, 4, 512], are the reference's embedding. -/
theorem embed_eq_eRef (x : FVec Ideal S32x4x3x256x128 .f32) (W : FVec Ideal S98304x512 .f32) (b : FVec Ideal S512 .f32) :
    shapeCast S32x4x512
        (k0_pay3 (accAt (shapeCast S128x98304 x shapeCasts_S32x4x3x256x128_S128x98304) W 24)
          (shapeCast S1x512 b shapeCasts_S512_S1x512))
        shapeCasts_S128x512_S32x4x512
      = Cert.Ref.eRef x W b := by
  unfold Cert.Ref.eRef
  exact embed_eq x W b

end Cert.Embed

end
-- ==== Proof.Tail.lean ====
/-
  The host tail shared by the kernel program and the reference: from the embedding e : f32[32,4,512] and the
  labels y : i32[32,4] to the three results
    d     : f32[32,32,1,3,512]   squared differences between the anchor row and the gathered positive rows,
    w     : f32[32,32,3,3]       label agreement between positives, as floats,
    label : i32[32,32,1,3]       label agreement between anchor and positives, as integers.
  The tail is carried as three opaque functions of (e, y); the fold of the kernel program's host operations after
  its region is shown to compute exactly these functions of the reshaped matmul result and the labels.
-/
import proofs.«164070_j32693291057655_1_alg».proof.Proof.Gen.KernelIdeal.Launch
import Idealize.ShloMosaic.Lib.StableHlo.Run
import Idealize.ShloMosaic.PureOps.Ideal

noncomputable section

namespace Cert.Tail

open Cert.KernelIdeal Cert.KernelIdeal.Gen Idealize.ShloMosaic Idealize.ShloMosaic.TcCoe Idealize.SL.Sem
open Idealize.ShloMosaic.StableHlo

/-- Contents of an `f32`, an `i32` and an `i1` tensor value of shape `s` at the ideal instance. -/
abbrev Fv (s : Shape) : Type := FVec Ideal s .f32
abbrev Iv (s : Shape) : Type := IVec s 32
abbrev Bv (s : Shape) : Type := IVec s 1

/-! ## The pieces -/

/-- The anchor row `e[:, 0:1, :]`. -/
def anchor (e : Fv S32x4x512) : Fv S32x1x512 :=
  extractStridedSlice S32x1x512 ![0, 0, 0] e slices_S32x4x512_S32x1x512_0_0_0
/-- The positive rows `e[:, 1:4, :]`. -/
def positives (e : Fv S32x4x512) : Fv S32x3x512 :=
  extractStridedSlice S32x3x512 ![0, 1, 0] e slices_S32x4x512_S32x3x512_0_1_0
/-- The anchor labels `y[:, 0:1]`. -/
def anchorLab (y : Iv S32x4) : Iv S32x1 :=
  extractStridedSlice S32x1 ![0, 0] y slices_S32x4_S32x1_0_0
/-- The positive labels `y[:, 1:4]`. -/
def positiveLab (y : Iv S32x4) : Iv S32x3 :=
  extractStridedSlice S32x3 ![0, 1] y slices_S32x4_S32x3_0_1

/-- The table `(i, j) ↦ j + i` before reduction. -/
def sumTable : Iv S32x32 :=
  addi (broadcastInDim S32x32 ![0, 1] bcast_S1x32_S32x32_0_1 (broadcastInDim S1x32 ![1] bcast_S32_S1x32_1 (iotaInDim S32 32 0)))
    (broadcastInDim S32x32 ![0, 1] bcast_S32x1_S32x32_0_1 (broadcastInDim S32x1 ![0] bcast_S32_S32x1_0 (iotaInDim S32 32 0)))

/-- The modulus, `32`. -/
def modulus : Iv S_ := constantI S_ 32 32#32

/-- The sign-corrected remainder of a table by a scalar, as the outlined function computes it: the divisor with zero
    replaced by one, the truncated remainder, and the divisor added back where the remainder is nonzero and its sign
    differs from the divisor's. -/
def pyRem (a : Iv S32x32) (n : Iv S_) : Iv S32x32 :=
  let n₀ : Iv S_ := select (cmpi .eq n (constantI S_ 32 0#32)) (constantI S_ 32 1#32) n
  let r : Iv S32x32 := Host.remsi a (broadcastInDim S32x32 ![] bcast_S_S32x32 n₀)
  let nz : Bv S32x32 := cmpi .ne r (broadcastInDim S32x32 ![] bcast_S_S32x32 (constantI S_ 32 0#32))
  let rneg : Bv S32x32 := cmpi .slt r (broadcastInDim S32x32 ![] bcast_S_S32x32 (constantI S_ 32 0#32))
  let nneg : Bv S32x32 := broadcastInDim S32x32 ![] bcast_S_S32x32 (cmpi .slt n₀ (constantI S_ 32 0#32))
  select (andi (cmpi .ne rneg nneg) nz) (addi r (broadcastInDim S32x32 ![] bcast_S_S32x32 n₀)) r

/-- A table of indices made non-negative by adding `32` to the negative entries, as a gather's start indices. -/
def startIdx (t : Iv S32x32) : Iv S32x32x1 :=
  broadcastInDim S32x32x1 ![0, 1] bcast_S32x32_S32x32x1_0_1
    (select (cmpi .slt t (broadcastInDim S32x32 ![] bcast_S_S32x32 (constantI S_ 32 0#32)))
      (addi t (broadcastInDim S32x32 ![] bcast_S_S32x32 (constantI S_ 32 32#32))) t)

/-- The squared differences from the anchor row, the positive rows and the index table. -/
def dOf (a : Fv S32x1x512) (p : Fv S32x3x512) (t : Iv S32x32) : Fv S32x32x1x3x512 :=
  let δ : Fv S32x32x1x3x512 :=
    subf (F := Ideal) (broadcastInDim S32x32x1x3x512 ![0, 1, 2, 3, 4] bcast_S1x32x1x1x512_S32x32x1x3x512_0_1_2_3_4
            (broadcastInDim S1x32x1x1x512 ![1, 2, 4] bcast_S32x1x512_S1x32x1x1x512_1_2_4 a))
         (broadcastInDim S32x32x1x3x512 ![0, 1, 3, 4] bcast_S32x32x3x512_S32x32x1x3x512_0_1_3_4
            (Host.gather gather_S32x3x512_S32x32x1_S32x32x3x512_23_0_n_n_0_2_13512 p (startIdx t)))
  mulf (F := Ideal) δ δ

/-- The gathered positive labels. -/
def gatheredLab (yp : Iv S32x3) (t : Iv S32x32) : Iv S32x32x3 :=
  Host.gather gather_S32x3_S32x32x1_S32x32x3_2_0_n_n_0_2_13 yp (startIdx t)

/-- Agreement of the anchor labels with the gathered positive labels, as 32-bit integers. -/
def lOf (ya : Iv S32x1) (yp : Iv S32x3) (t : Iv S32x32) : Iv S32x32x1x3 :=
  extui 32 (cmpi .eq
      (broadcastInDim S32x32x1x3 ![0, 1, 2, 3] bcast_S1x32x1x1_S32x32x1x3_0_1_2_3 (broadcastInDim S1x32x1x1 ![1, 2] bcast_S32x1_S1x32x1x1_1_2 ya))
      (broadcastInDim S32x32x1x3 ![0, 1, 3] bcast_S32x32x3_S32x32x1x3_0_1_3 (gatheredLab yp t))) natLt_1_32

/-- Agreement of the positive labels with the gathered positive labels, as floats. -/
def wOf (yp : Iv S32x3) (t : Iv S32x32) : Fv S32x32x3x3 :=
  uitofp (F := Ideal) .f32 (cmpi .eq
      (broadcastInDim S32x32x3x3 ![0, 1, 2, 3] bcast_S1x32x3x1_S32x32x3x3_0_1_2_3 (broadcastInDim S1x32x3x1 ![1, 2] bcast_S32x3_S1x32x3x1_1_2 yp))
      (broadcastInDim S32x32x3x3 ![0, 1, 2, 3] bcast_S32x32x1x3_S32x32x3x3_0_1_2_3
        (broadcastInDim S32x32x1x3 ![0, 1, 3] bcast_S32x32x3_S32x32x1x3_0_1_3 (gatheredLab yp t))))

/-- The index table `(i, j) ↦ (i + j) mod 32`. -/
def idxTable : Iv S32x32 := pyRem sumTable modulus

/-! ## The tail -/

/-- `d` of the embedding `e` and the labels `y`. -/
def tailD (e : Fv S32x4x512) (y : Iv S32x4) : Fv S32x32x1x3x512 := dOf (anchor e) (positives e) idxTable
/-- `w` of the labels `y`. -/
def tailW (y : Iv S32x4) : Fv S32x32x3x3 := wOf (positiveLab y) idxTable
/-- `label` of the labels `y`. -/
def tailL (y : Iv S32x4) : Iv S32x32x1x3 := lOf (anchorLab y) (positiveLab y) idxTable

/-! ## The kernel program's host operations after its region compute the tail -/

/-- The fold over two lines in a row. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

section Stages

-- the equations below are between one composition of the pure operations written two ways: they are compared
-- argument by argument, never opened
attribute [local irreducible] select cmpi addi andi Host.remsi broadcastInDim constantI Host.gather subf mulf extui uitofp
  extractStridedSlice shapeCast iotaInDim

variable (V : Valuation τ sig (Elt Ideal))

theorem s1_v3 : after (hostOps1 (F := Ideal)) V (Proc.devRef .tc main_v3)
    = shapeCast S32x4x512 (V (Proc.devRef .tc main_v2)) shapeCasts_S128x512_S32x4x512 := by
  after_results; rfl
theorem s1_v4 : after (hostOps1 (F := Ideal)) V (Proc.devRef .tc main_v4)
    = anchor (shapeCast S32x4x512 (V (Proc.devRef .tc main_v2)) shapeCasts_S128x512_S32x4x512) := by
  after_results; rfl
theorem s1_v5 : after (hostOps1 (F := Ideal)) V (Proc.devRef .tc main_v5)
    = positives (shapeCast S32x4x512 (V (Proc.devRef .tc main_v2)) shapeCasts_S128x512_S32x4x512) := by
  after_results; rfl
theorem s1_v6 : after (hostOps1 (F := Ideal)) V (Proc.devRef .tc main_v6) = anchorLab (V (Proc.devRef .tc main_arg1)) := by
  after_results; rfl
theorem s1_v7 : after (hostOps1 (F := Ideal)) V (Proc.devRef .tc main_v7) = positiveLab (V (Proc.devRef .tc main_arg1)) := by
  after_results; rfl
theorem s1_v14 : after (hostOps1 (F := Ideal)) V (Proc.devRef .tc main_v14) = sumTable := by
  after_results; rfl
theorem s1_c : after (hostOps1 (F := Ideal)) V (Proc.devRef .tc main_c) = modulus := by
  after_results; rfl

theorem s2_v15 : after (hostOps1_1 (F := Ideal)) V (Proc.devRef .tc main_v15)
    = pyRem (V (Proc.devRef .tc main_v14)) (V (Proc.devRef .tc main_c)) := by
  after_results_simp; rfl
theorem s2_v4 : after (hostOps1_1 (F := Ideal)) V (Proc.devRef .tc main_v4) = V (Proc.devRef .tc main_v4) := by after_results_simp
theorem s2_v5 : after (hostOps1_1 (F := Ideal)) V (Proc.devRef .tc main_v5) = V (Proc.devRef .tc main_v5) := by after_results_simp
theorem s2_v6 : after (hostOps1_1 (F := Ideal)) V (Proc.devRef .tc main_v6) = V (Proc.devRef .tc main_v6) := by after_results_simp
theorem s2_v7 : after (hostOps1_1 (F := Ideal)) V (Proc.devRef .tc main_v7) = V (Proc.devRef .tc main_v7) := by after_results_simp

theorem s3_v34 : after (hostOps1_2 (F := Ideal)) V (Proc.devRef .tc main_v34)
    = dOf (V (Proc.devRef .tc main_v4)) (V (Proc.devRef .tc main_v5)) (V (Proc.devRef .tc main_v15)) := by
  after_results_simp; rfl
theorem s3_v45 : after (hostOps1_2 (F := Ideal)) V (Proc.devRef .tc main_v45)
    = wOf (V (Proc.devRef .tc main_v7)) (V (Proc.devRef .tc main_v15)) := by
  after_results_simp; rfl
theorem s3_v39 : after (hostOps1_2 (F := Ideal)) V (Proc.devRef .tc main_v39)
    = lOf (V (Proc.devRef .tc main_v6)) (V (Proc.devRef .tc main_v7)) (V (Proc.devRef .tc main_v15)) := by
  after_results_simp; rfl

end Stages

/-! ## The three results -/

variable (Wv : Valuation τ sig (Elt Ideal))

/-- `d`: the fold of the host operations after the region, at the result buffer, is the tail of the reshaped
    matmul result and the labels. -/
theorem kernel_tail_D :
    after (hostOps1 (F := Ideal) ++ hostOps1_1 ++ hostOps1_2) Wv (Proc.devRef .tc main_v34)
      = tailD (shapeCast S32x4x512 (Wv (Proc.devRef .tc main_v2)) shapeCasts_S128x512_S32x4x512) (Wv (Proc.devRef .tc main_arg1)) := by
  rw [after_app, after_app, s3_v34, s2_v4, s2_v5, s2_v15, s1_v4, s1_v5, s1_v14, s1_c]; rfl
theorem kernel_tail_W :
    after (hostOps1 (F := Ideal) ++ hostOps1_1 ++ hostOps1_2) Wv (Proc.devRef .tc main_v45) = tailW (Wv (Proc.devRef .tc main_arg1)) := by
  rw [after_app, after_app, s3_v45, s2_v7, s2_v15, s1_v7, s1_v14, s1_c]; rfl
theorem kernel_tail_L :
    after (hostOps1 (F := Ideal) ++ hostOps1_1 ++ hostOps1_2) Wv (Proc.devRef .tc main_v39) = tailL (Wv (Proc.devRef .tc main_arg1)) := by
  rw [after_app, after_app, s3_v39, s2_v6, s2_v7, s2_v15, s1_v6, s1_v7, s1_v14, s1_c]; rfl

/-- The same three for the operations given as the flattening of the three stretches. -/
theorem flatten_eq : List.flatten [hostOps1 (F := Ideal), hostOps1_1, hostOps1_2] = hostOps1 ++ hostOps1_1 ++ hostOps1_2 := by
  simp only [List.flatten_cons, List.flatten_nil, List.append_nil, List.append_assoc]
theorem kernel_tail_D' :
    after (List.flatten [hostOps1 (F := Ideal), hostOps1_1, hostOps1_2]) Wv (Proc.devRef .tc main_v34)
      = tailD (shapeCast S32x4x512 (Wv (Proc.devRef .tc main_v2)) shapeCasts_S128x512_S32x4x512) (Wv (Proc.devRef .tc main_arg1)) := by
  rw [flatten_eq]; exact kernel_tail_D Wv
theorem kernel_tail_W' :
    after (List.flatten [hostOps1 (F := Ideal), hostOps1_1, hostOps1_2]) Wv (Proc.devRef .tc main_v45) = tailW (Wv (Proc.devRef .tc main_arg1)) := by
  rw [flatten_eq]; exact kernel_tail_W Wv
theorem kernel_tail_L' :
    after (List.flatten [hostOps1 (F := Ideal), hostOps1_1, hostOps1_2]) Wv (Proc.devRef .tc main_v39) = tailL (Wv (Proc.devRef .tc main_arg1)) := by
  rw [flatten_eq]; exact kernel_tail_L Wv

end Cert.Tail

end
-- ==== Proof.KIValue.lean ====
/-
  The kernel's values at the exact reals. Each control case's stores, read back, are the body's payloads of its loads: the
  first grid point leaves in the accumulator the first block product added to zero, every later point the point's block
  product added to what the accumulator held, and the last point also leaves in the output block the accumulator plus the
  bias row. By induction on the grid point the accumulator after point n holds the sum of the first n + 1 block products;
  the output array, written back once, after the last point, ends at the full contraction plus the bias. The two reshapes
  before the region and the host lines after it then give the three results as the shared tail of that embedding.
-/
import proofs.«164070_j32693291057655_1_alg».proof.Proof.KIClaim
import proofs.«164070_j32693291057655_1_alg».proof.Proof.EmbedRef
import proofs.«164070_j32693291057655_1_alg».proof.Proof.Tail
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Val

open Cert.KernelIdeal Cert.KernelIdeal.Gen Cert.Embed

/-! ## What each case's stores read back to -/

section Pieces

variable {F : FTy → Type} [FloatOps F]

theorem hz : (![0, 0] : Fin 2 → Nat) = fun _ => 0 := funext fun a => by fin_cases a <;> rfl

/-- The first point: zero is stored, read back, and the block product added to it. -/
theorem acc_A (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : cond0_0 i) (hc1 : ¬cond0_1 i) (x0 : Vec F S128x4096 .f32) (x1 : Vec F S4096x512 .f32) (x2 : Vec F S1x512 .f32) :
    sout0_A_0 c i arg1 harg1 arg2 harg2 arg3 harg3 arg4 harg4 arg5 harg5 hc0 hc1 x0 x1 x2 = k0_pay2 x0 x1 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S128x512) hz, View.readCov_unit_zero (S := S128x512) _ hz]
  simp only [View.readAt_eq_ld, harg1.read_unread, harg2.read_unread, harg3.read_unread, harg5.read_unread, View.ld_unit_zero (S := S128x4096) hz, View.ld_unit_zero (S := S4096x512) hz, View.ld_unit_zero (S := S1x512) hz, View.ld_unit_zero (S := S128x512) hz]

/-- A middle point: the block product is added to what the accumulator held. -/
theorem acc_B (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : ¬cond0_1 i) (x0 : Vec F S128x4096 .f32) (x1 : Vec F S4096x512 .f32) (x2 : Vec F S1x512 .f32) (xs0 : Vec F S128x512 .f32) :
    sout0_B_0 c i arg1 harg1 arg2 harg2 arg3 harg3 arg4 harg4 arg5 harg5 hc0 hc1 x0 x1 x2 xs0 = k0_pay2 x0 x1 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg1.read_unread, harg2.read_unread, harg3.read_unread, harg5.read_unread, View.ld_unit_zero (S := S128x4096) hz, View.ld_unit_zero (S := S4096x512) hz, View.ld_unit_zero (S := S1x512) hz, View.ld_unit_zero (S := S128x512) hz]

/-- The last point leaves the accumulator as a middle point does, -/
theorem acc_C (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) :
    sout0_C_0 c i arg1 harg1 arg2 harg2 arg3 harg3 arg4 harg4 arg5 harg5 hc0 hc1 x0 x1 x2 xs0 = k0_pay2 x0 x1 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread, View.ld_unit_zero (S := S128x4096) hz, View.ld_unit_zero (S := S4096x512) hz, View.ld_unit_zero (S := S1x512) hz, View.ld_unit_zero (S := S128x512) hz]

/-- and stores the new accumulator plus the bias row into the output block. -/
theorem out_C (c : Dev nD) (i : grid0.Coords) (arg1 : Memref sig .tc .vmem S128x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S128x512 .f32) (harg5 : arg5.IsWhole) (hc0 : ¬cond0_0 i) (hc1 : cond0_1 i) (x0 : Vec F S128x4096 .f32) (x1 : Vec F S4096x512 .f32) (x2 : Vec F S1x512 .f32) (xs0 : Vec F S128x512 .f32) :
    out0_C_3 c i arg1 harg1 arg2 harg2 arg3 harg3 arg4 harg4 arg5 harg5 hc0 hc1 x0 x1 x2 xs0 = k0_pay3 (k0_pay2 x0 x1 xs0) x2 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S128x512) _ hz]
  simp only [View.readAt_eq_ld, harg1.read_unread, harg2.read_unread, harg3.read_unread, harg5.read_unread, View.ld_unit_zero (S := S128x4096) hz, View.ld_unit_zero (S := S4096x512) hz, View.ld_unit_zero (S := S1x512) hz, View.ld_unit_zero (S := S128x512) hz]

end Pieces

variable (m : (ℓ : Loc nD τ sig) → Buf (Elt Ideal) ℓ) (ρ : Dev nD → PrngReg)

/-! ## The windows' blocks are the blocks of the contraction -/

/-- The left matrix is cut along its columns, the right one along its rows, the bias row and the output are whole. -/
theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

theorem iblk0_eq (c : Dev nD) (t : Fin cfg0.N) :
    (iblk m c 0 t : FVec Ideal S128x4096 .f32) = xblk (V m c main_v0) ⟨t.val, lt24 t⟩ := by
  have hi := idx0 t
  funext j
  unfold iblk xblk
  rw [View.read_apply]
  show V m c main_v0 _ = V m c main_v0 _
  congr 1
  funext a
  apply Fin.ext
  match a with
  | ⟨0, _⟩ => show win0_0.index t 0 * 128 + 1 * (j 0).val = (j 0).val; rw [hi.1]; omega
  | ⟨1, _⟩ => show win0_0.index t 1 * 4096 + 1 * (j 1).val = 4096 * t.val + (j 1).val; rw [hi.2]; omega

theorem iblk1_eq (c : Dev nD) (t : Fin cfg0.N) :
    (iblk m c 1 t : FVec Ideal S4096x512 .f32) = wblk (V m c main_arg2) ⟨t.val, lt24 t⟩ := by
  have hi := idx1 t
  funext j
  unfold iblk wblk
  rw [View.read_apply]
  show V m c main_arg2 _ = V m c main_arg2 _
  congr 1
  funext a
  apply Fin.ext
  match a with
  | ⟨0, _⟩ => show win0_1.index t 0 * 4096 + 1 * (j 0).val = 4096 * t.val + (j 0).val; rw [hi.1]; omega
  | ⟨1, _⟩ => show win0_1.index t 1 * 512 + 1 * (j 1).val = (j 1).val; rw [hi.2]; omega

theorem iblk2_eq (c : Dev nD) (t : Fin cfg0.N) :
    (iblk m c 2 t : FVec Ideal S1x512 .f32) = V m c main_v1 := by
  have hi := idx2 t
  funext j
  unfold iblk
  rw [View.read_apply]
  show V m c main_v1 _ = V m c main_v1 j
  congr 1
  funext a
  apply Fin.ext
  match a with
  | ⟨0, _⟩ => show win0_2.index t 0 * 1 + 1 * (j 0).val = (j 0).val; rw [hi.1]; omega
  | ⟨1, _⟩ => show win0_2.index t 1 * 512 + 1 * (j 1).val = (j 1).val; rw [hi.2]; omega

/-! ## The accumulation -/

/-- After point `n` the accumulator holds the sum of the first `n + 1` block products. -/
theorem outsAt_acc (c : Dev nD) : ∀ (n : ℕ) (h : n < cfg0.N),
    (outsAt0 m c n h).2 = accAt (V m c main_v0) (V m c main_arg2) (n + 1)
  | 0, h => by
    rw [outsAt0_A m c ⟨0, h⟩ rfl (by dsimp only; omega)]
    dsimp only
    rw [acc_A, iblk0_eq, iblk1_eq, ← accAt_zero (V m c main_v0) (V m c main_arg2)]
    exact (accAt_succ (V m c main_v0) (V m c main_arg2) ⟨0, by omega⟩).symm
  | n + 1, h => by
    have hN : n + 1 < 24 := lt_of_lt_of_eq h (show cfg0.N = 24 from N_0)
    have h0 : ¬(⟨n + 1, h⟩ : Fin cfg0.N).val % 24 = 0 := by dsimp only; omega
    by_cases h1 : (⟨n + 1, h⟩ : Fin cfg0.N).val % 24 = 23
    · rw [outsAt0_C m c ⟨n + 1, h⟩ h0 h1]
      dsimp only
      rw [acc_C, iblk0_eq, iblk1_eq]
      show k0_pay2 _ _ (outsAt0 m c n _).2 = _
      rw [outsAt_acc c n]
      exact (accAt_succ (V m c main_v0) (V m c main_arg2) ⟨n + 1, hN⟩).symm
    · rw [outsAt0_B m c ⟨n + 1, h⟩ h0 h1]
      dsimp only
      rw [acc_B, iblk0_eq, iblk1_eq]
      show k0_pay2 _ _ (outsAt0 m c n _).2 = _
      rw [outsAt_acc c n]
      exact (accAt_succ (V m c main_v0) (V m c main_arg2) ⟨n + 1, hN⟩).symm

theorem h23 : 23 < cfg0.N := by rw [show cfg0.N = 24 from N_0]; decide
/-- The last grid point. -/
abbrev t23 : Fin cfg0.N := ⟨23, h23⟩

/-- The embedding as the kernel leaves it: the full contraction plus the bias row, a [128, 512] array. -/
abbrev result (c : Dev nD) : Buf (Elt Ideal) ((c : Thread nD τ).loc main_v2) :=
  k0_pay3 (accAt (V m c main_v0) (V m c main_arg2) 24) (V m c main_v1)

/-- What the last point leaves in the output block. -/
theorem out_last (c : Dev nD) : (outsAt0 m c t23.val t23.isLt).1 = result m c := by
  rw [outsAt0_C m c t23 (by decide) (by decide)]
  dsimp only
  rw [out_C, iblk0_eq, iblk1_eq, iblk2_eq]
  show k0_pay3 (k0_pay2 _ _ (outsAt0 m c 22 _).2) _ = _
  rw [outsAt_acc m c 22]
  exact congrArg (fun a => k0_pay3 a (V m c main_v1)) (accAt_succ (V m c main_v0) (V m c main_arg2) ⟨23, by decide⟩).symm

/-- The one write-back, after the last point, writes it: the output's block is the whole array. -/
theorem flushed_eq (c : Dev nD) (t : Fin cfg0.N) (hf : (cfg0.win 3).flush t = true) :
    (dats m 0 c).flushed 3 t = ((cfg0.win 3).blk t).view.read (Elt Ideal) (result m c) := by
  have h3 : t.val = 23 := by have := (flush0_3 t).mp hf; have := lt24 t; omega
  obtain rfl : t = t23 := Fin.ext h3
  show (cfg0.win 3).cut (grid0.coords t23) ((dats m 0 c).after 3 t23) = _
  rw [after0_3, out_last]
  have hz' : (fun a => win0_3.index t23 a * main_v2.ty.shape.size a) = fun _ => 0 := funext fun a => by fin_cases a <;> decide
  exact (Memref.read_access_unit_zero (Elt Ideal) main_v2 hz' (fun a => by rw [congrFun hz' a]; simp) (result m c)).symm

/-- So the output array ends holding the embedding. -/
theorem final3 (c : Dev nD) : (dats m 0 c).arrAt 3 cfg0.N = result m c :=
  (dats m 0 c).arrAt_eq_of_cover 3 (result m c) (flushed_eq m c) fun i =>
    ⟨t23, (flush0_3 t23).mpr rfl, by
      show i ∈ ((View.whole main_v2).slice (win0_3.rect t23)).set
      rw [View.set_slice_whole, Rect.mem_set_unit]
      intro a
      have h0 : (i 0 : Nat) < 128 := (i 0).isLt
      have h1 : (i 1 : Nat) < 512 := (i 1).isLt
      match a with
      | ⟨0, _⟩ => show win0_3.index t23 0 * win0_3.size 0 ≤ (i 0 : Nat) ∧ (i 0 : Nat) < win0_3.index t23 0 * win0_3.size 0 + win0_3.xsize (grid0.coords t23) 0
                  rw [show win0_3.index t23 0 * win0_3.size 0 = 0 from by decide +kernel, show win0_3.xsize (grid0.coords t23) 0 = 128 from by decide +kernel]; omega
      | ⟨1, _⟩ => show win0_3.index t23 1 * win0_3.size 1 ≤ (i 1 : Nat) ∧ (i 1 : Nat) < win0_3.index t23 1 * win0_3.size 1 + win0_3.xsize (grid0.coords t23) 1
                  rw [show win0_3.index t23 1 * win0_3.size 1 = 0 from by decide +kernel, show win0_3.xsize (grid0.coords t23) 1 = 512 from by decide +kernel]; omega⟩

/-! ## The two reshapes before the region -/

theorem V_v0 (c : Dev nD) : (V m c main_v0 : FVec Ideal S128x98304 .f32)
    = shapeCast S128x98304 (m ((c : Thread nD τ).loc main_arg0)) shapeCasts_S32x4x3x256x128_S128x98304 := by
  dsimp only [V, V0]
  simp only [hostOps0, List.flatten_cons, List.flatten_nil, List.append_nil, List.cons_append, List.nil_append]
  after_results; rfl

theorem V_v1 (c : Dev nD) : (V m c main_v1 : FVec Ideal S1x512 .f32)
    = shapeCast S1x512 (m ((c : Thread nD τ).loc main_arg3)) shapeCasts_S512_S1x512 := by
  dsimp only [V, V0]
  simp only [hostOps0, List.flatten_cons, List.flatten_nil, List.append_nil, List.cons_append, List.nil_append]
  after_results; rfl

/-- The embedding the kernel leaves, reshaped to [32, 4, 512], is the reference's. -/
theorem result_eq (c : Dev nD) :
    shapeCast S32x4x512 (result m c) shapeCasts_S128x512_S32x4x512
      = Cert.Ref.eRef (m ((c : Thread nD τ).loc main_arg0)) (m ((c : Thread nD τ).loc main_arg2)) (m ((c : Thread nD τ).loc main_arg3)) := by
  unfold result
  rw [V_v0, V_v1, V_main_arg2]
  exact embed_eq_eRef _ _ _

/-! ## The host lines after the region: the three results -/

/-- The buffer contents the later lines start from: the arrays as the region leaves them, the rest as it found them. -/
abbrev exitV (c : Dev nD) : Valuation τ sig (Elt Ideal) :=
  Pipeline.withArrays spec0 c (V0 m c) fun w => (dats m 0 c).arrAt w cfg0.N

theorem exit_v2 (c : Dev nD) : exitV m c (Proc.devRef .tc main_v2) = result m c :=
  (Pipeline.withArrays_arr spec0 launch0.win.arr_inj c (V0 m c) _ 3).trans (final3 m c)

theorem exit_arg1 (c : Dev nD) : exitV m c (Proc.devRef .tc main_arg1) = m ((c : Thread nD τ).loc main_arg1) :=
  (Pipeline.withArrays_of_ne spec0 c (V0 m c) _ main_arg1 (by decide)).trans (V_main_arg1 m c)

theorem res34 (c : Dev nD) : Pipeline.afterTail₀ cfgs (dats m) 0 (V0 m) [hostOps1, hostOps1_1, hostOps1_2] c main_v34
    = Cert.Tail.tailD (Cert.Ref.eRef (m ((c : Thread nD τ).loc main_arg0)) (m ((c : Thread nD τ).loc main_arg2)) (m ((c : Thread nD τ).loc main_arg3)))
        (m ((c : Thread nD τ).loc main_arg1)) := by
  unfold Pipeline.afterTail₀
  show StableHlo.after (List.flatten [hostOps1, hostOps1_1, hostOps1_2]) (exitV m c) (Proc.devRef .tc main_v34) = _
  rw [Cert.Tail.kernel_tail_D' (exitV m c), exit_v2, exit_arg1, result_eq]

theorem res45 (c : Dev nD) : Pipeline.afterTail₀ cfgs (dats m) 0 (V0 m) [hostOps1, hostOps1_1, hostOps1_2] c main_v45
    = Cert.Tail.tailW (m ((c : Thread nD τ).loc main_arg1)) := by
  unfold Pipeline.afterTail₀
  show StableHlo.after (List.flatten [hostOps1, hostOps1_1, hostOps1_2]) (exitV m c) (Proc.devRef .tc main_v45) = _
  rw [Cert.Tail.kernel_tail_W' (exitV m c), exit_arg1]

theorem res39 (c : Dev nD) : Pipeline.afterTail₀ cfgs (dats m) 0 (V0 m) [hostOps1, hostOps1_1, hostOps1_2] c main_v39
    = Cert.Tail.tailL (m ((c : Thread nD τ).loc main_arg1)) := by
  unfold Pipeline.afterTail₀
  show StableHlo.after (List.flatten [hostOps1, hostOps1_1, hostOps1_2]) (exitV m c) (Proc.devRef .tc main_v39) = _
  rw [Cert.Tail.kernel_tail_L' (exitV m c), exit_arg1]

/-! ## The run, read -/

/-- Every weakly fair execution of @main terminates without a fault; the three results are the shared tail of the
    reference's embedding and of the labels; the four arguments end as launched. -/
theorem run : θ_run defs (onTc (τ := τ) (main (F := Ideal))) ⟨m, fun _ => 0, ρ⟩ (fun r => ∀ c : Dev nD,
      r.2.mem ((c.tc : Thread nD τ).loc main_v34)
        = Cert.Tail.tailD (Cert.Ref.eRef (m ((c.tc : Thread nD τ).loc main_arg0)) (m ((c.tc : Thread nD τ).loc main_arg2)) (m ((c.tc : Thread nD τ).loc main_arg3)))
            (m ((c.tc : Thread nD τ).loc main_arg1))
      ∧ r.2.mem ((c.tc : Thread nD τ).loc main_v45) = Cert.Tail.tailW (m ((c.tc : Thread nD τ).loc main_arg1))
      ∧ r.2.mem ((c.tc : Thread nD τ).loc main_v39) = Cert.Tail.tailL (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v34 (Pipeline.mem_restRefs_of main_v34 (by decide) (by decide))).trans (res34 m c),
     ((h c).2 main_v45 (Pipeline.mem_restRefs_of main_v45 (by decide) (by decide))).trans (res45 m c),
     ((h c).2 main_v39 (Pipeline.mem_restRefs_of main_v39 (by decide) (by decide))).trans (res39 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c)⟩) (run_main m ρ)

end Cert.KernelIdeal.Val

end
-- ==== Proof.RefRun.lean ====
/-
  The reference program's run: its @main is a straight line of 72 host operations — the five of the embedding
  (reshape, contraction, two broadcasts of the bias, the sum), the twelve that slice the embedding and the labels and
  build the table (i, j) ↦ j + i, the twenty-one of the outlined remainder function listed at its call over the
  call's buffers, and the thirty-four of the rest of the tail. Every weakly fair execution terminates with each
  buffer at the fold of the operations over the launch contents; the arguments are written by no operation.
-/
import proofs.«164070_j32693291057655_1_alg».proof.Proof.Gen.ReferenceIdeal
import proofs.«164070_j32693291057655_1_alg».proof.Defs
import proofs.«164070_j32693291057655_1_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- The embedding: `%0 … %4`. -/
abbrev ops0 : List (HloOp τ sig (Elt F)) :=
  [ StableHlo.reshape main_arg0 main_v0 rfl shapeCasts_S32x4x3x256x128_S32x4x98304,
    StableHlo.binary main_v0 main_arg2 main_v1 ((fun l r => Host.dotGeneral dot_S32x4x98304_S98304x512_S32x4x512_2_0_01_1_n_n none l r) : (⟨S32x4x98304, .f32⟩ : BufTy).Contents (Elt F) → (⟨S98304x512, .f32⟩ : BufTy).Contents (Elt F) → (⟨S32x4x512, .f32⟩ : BufTy).Contents (Elt F)),
    StableHlo.unary main_arg3 main_v2 (broadcastInDim S1x1x512 ![2] bcast_S512_S1x1x512_2 : (⟨S512, .f32⟩ : BufTy).Contents (Elt F) → (⟨S1x1x512, .f32⟩ : BufTy).Contents (Elt F)),
    StableHlo.unary main_v2 main_v3 (broadcastInDim S32x4x512 ![0, 1, 2] bcast_S1x1x512_S32x4x512_0_1_2 : (⟨S1x1x512, .f32⟩ : BufTy).Contents (Elt F) → (⟨S32x4x512, .f32⟩ : BufTy).Contents (Elt F)),
    StableHlo.binary main_v1 main_v3 main_v4 (addf : (⟨S32x4x512, .f32⟩ : BufTy).Contents (Elt F) → (⟨S32x4x512, .f32⟩ : BufTy).Contents (Elt F) → (⟨S32x4x512, .f32⟩ : BufTy).Contents (Elt F)) ]

/-- The slices of the embedding and of the labels, and the table `(i, j) ↦ j + i` with the modulus: `%5 … %15`, `%c`. -/
abbrev ops1 : List (HloOp τ sig (Elt F)) :=
  [ StableHlo.unary main_v4 main_v5 ((extractStridedSlice S32x1x512 ![0, 0, 0] · slices_S32x4x512_S32x1x512_0_0_0) : (⟨S32x4x512, .f32⟩ : BufTy).Contents (Elt F) → (⟨S32x1x512, .f32⟩ : BufTy).Contents (Elt F)),
    StableHlo.unary main_v4 main_v6 ((extractStridedSlice S32x3x512 ![0, 1, 0] · slices_S32x4x512_S32x3x512_0_1_0) : (⟨S32x4x512, .f32⟩ : BufTy).Contents (Elt F) → (⟨S32x3x512, .f32⟩ : BufTy).Contents (Elt F)),
    StableHlo.unary main_arg1 main_v7 ((extractStridedSlice S32x1 ![0, 0] · slices_S32x4_S32x1_0_0) : (⟨S32x4, .i32⟩ : BufTy).Contents (Elt F) → (⟨S32x1, .i32⟩ : BufTy).Contents (Elt F)),
    StableHlo.unary main_arg1 main_v8 ((extractStridedSlice S32x3 ![0, 1] · slices_S32x4_S32x3_0_1) : (⟨S32x4, .i32⟩ : BufTy).Contents (Elt F) → (⟨S32x3, .i32⟩ : BufTy).Contents (Elt F)),
    StableHlo.nullary main_v9 (iotaInDim S32 32 0),
    StableHlo.unary main_v9 main_v10 (broadcastInDim S1x32 ![1] bcast_S32_S1x32_1 : (⟨S32, .i32⟩ : BufTy).Contents (Elt F) → (⟨S1x32, .i32⟩ : BufTy).Contents (Elt F)),
    StableHlo.nullary main_v11 (iotaInDim S32 32 0),
    StableHlo.unary main_v11 main_v12 (broadcastInDim S32x1 ![0] bcast_S32_S32x1_0 : (⟨S32, .i32⟩ : BufTy).Contents (Elt F) → (⟨S32x1, .i32⟩ : BufTy).Contents (Elt F)),
    StableHlo.unary main_v10 main_v13 (broadcastInDim S32x32 ![0, 1] bcast_S1x32_S32x32_0_1 : (⟨S1x32, .i32⟩ : BufTy).Contents (Elt F) → (⟨S32x32, .i32⟩ : BufTy).Contents (Elt F)),
    StableHlo.unary main_v12 main_v14 (broadcastInDim S32x32 ![0, 1] bcast_S32x1_S32x32_0_1 : (⟨S32x1, .i32⟩ : BufTy).Contents (Elt F) → (⟨S32x32, .i32⟩ : BufTy).Contents (Elt F)),
    StableHlo.binary main_v13 main_v14 main_v15 (addi : (⟨S32x32, .i32⟩ : BufTy).Contents (Elt F) → (⟨S32x32, .i32⟩ : BufTy).Contents (Elt F) → (⟨S32x32, .i32⟩ : BufTy).Contents (Elt F)),
    StableHlo.nullary main_c (constantI S_ 32 32#32) ]

/-- The outlined remainder function's operations at its one call, over the call's buffers. -/
abbrev ops2 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S32x32, .i32⟩) (broadcastInDim S32x32 ![] bcast_S_S32x32),
    StableHlo.TRef.binary (.of main_v15 : StableHlo.TRef sig ⟨S32x32, .i32⟩) (.of main_call0_v3 : StableHlo.TRef sig ⟨S32x32, .i32⟩) (.of main_call0_v4 : StableHlo.TRef sig ⟨S32x32, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S32x32, .i32⟩) (broadcastInDim S32x32 ![] bcast_S_S32x32),
    StableHlo.TRef.binary (.of main_call0_v4 : StableHlo.TRef sig ⟨S32x32, .i32⟩) (.of main_call0_v5 : StableHlo.TRef sig ⟨S32x32, .i32⟩) (.of main_call0_v6 : StableHlo.TRef sig ⟨S32x32, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S32x32, .i32⟩) (broadcastInDim S32x32 ![] bcast_S_S32x32),
    StableHlo.TRef.binary (.of main_call0_v4 : StableHlo.TRef sig ⟨S32x32, .i32⟩) (.of main_call0_v7 : StableHlo.TRef sig ⟨S32x32, .i32⟩) (.of main_call0_v8 : StableHlo.TRef sig ⟨S32x32, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S32x32, .i1⟩) (broadcastInDim S32x32 ![] bcast_S_S32x32),
    StableHlo.TRef.binary (.of main_call0_v8 : StableHlo.TRef sig ⟨S32x32, .i1⟩) (.of main_call0_v10 : StableHlo.TRef sig ⟨S32x32, .i1⟩) (.of main_call0_v11 : StableHlo.TRef sig ⟨S32x32, .i1⟩) (cmpi .ne),
    StableHlo.TRef.binary (.of main_call0_v11 : StableHlo.TRef sig ⟨S32x32, .i1⟩) (.of main_call0_v6 : StableHlo.TRef sig ⟨S32x32, .i1⟩) (.of main_call0_v12 : StableHlo.TRef sig ⟨S32x32, .i1⟩) andi,
    StableHlo.TRef.unary main_call0_call0.v0 (.of main_call0_v13 : StableHlo.TRef sig ⟨S32x32, .i32⟩) (broadcastInDim S32x32 ![] bcast_S_S32x32),
    StableHlo.TRef.binary (.of main_call0_v4 : StableHlo.TRef sig ⟨S32x32, .i32⟩) (.of main_call0_v13 : StableHlo.TRef sig ⟨S32x32, .i32⟩) (.of main_call0_v14 : StableHlo.TRef sig ⟨S32x32, .i32⟩) addi,
    StableHlo.TRef.ternary (.of main_call0_v12 : StableHlo.TRef sig ⟨S32x32, .i1⟩) (.of main_call0_v14 : StableHlo.TRef sig ⟨S32x32, .i32⟩) (.of main_call0_v4 : StableHlo.TRef sig ⟨S32x32, .i32⟩) (.of main_v16 : StableHlo.TRef sig ⟨S32x32, .i32⟩) select ]

/-- The rest of the tail: `%c_0 … %46`. -/
abbrev ops3 : List (HloOp τ sig (Elt F)) :=
  [ StableHlo.nullary main_c_0 (constantI S_ 32 0#32),
    StableHlo.unary main_c_0 main_v17 (broadcastInDim S32x32 ![] bcast_S_S32x32 : (⟨S_, .i32⟩ : BufTy).Contents (Elt F) → (⟨S32x32, .i32⟩ : BufTy).Contents (Elt F)),
    StableHlo.binary main_v16 main_v17 main_v18 (cmpi .slt : (⟨S32x32, .i32⟩ : BufTy).Contents (Elt F) → (⟨S32x32, .i32⟩ : BufTy).Contents (Elt F) → (⟨S32x32, .i1⟩ : BufTy).Contents (Elt F)),
    StableHlo.nullary main_c_1 (constantI S_ 32 32#32),
    StableHlo.unary main_c_1 main_v19 (broadcastInDim S32x32 ![] bcast_S_S32x32 : (⟨S_, .i32⟩ : BufTy).Contents (Elt F) → (⟨S32x32, .i32⟩ : BufTy).Contents (Elt F)),
    StableHlo.binary main_v16 main_v19 main_v20 (addi : (⟨S32x32, .i32⟩ : BufTy).Contents (Elt F) → (⟨S32x32, .i32⟩ : BufTy).Contents (Elt F) → (⟨S32x32, .i32⟩ : BufTy).Contents (Elt F)),
    StableHlo.ternary main_v18 main_v20 main_v16 main_v21 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v21 main_v22 (broadcastInDim S32x32x1 ![0, 1] bcast_S32x32_S32x32x1_0_1 : (⟨S32x32, .i32⟩ : BufTy).Contents (Elt F) → (⟨S32x32x1, .i32⟩ : BufTy).Contents (Elt F)),
    StableHlo.binary main_v6 main_v22 main_v23 ((fun x i => Host.gather gather_S32x3x512_S32x32x1_S32x32x3x512_23_0_n_n_0_2_13512 x i) : (⟨S32x3x512, .f32⟩ : BufTy).Contents (Elt F) → (⟨S32x32x1, .i32⟩ : BufTy).Contents (Elt F) → (⟨S32x32x3x512, .f32⟩ : BufTy).Contents (Elt F)),
    StableHlo.nullary main_c_2 (constantI S_ 32 0#32),
    StableHlo.unary main_c_2 main_v24 (broadcastInDim S32x32 ![] bcast_S_S32x32 : (⟨S_, .i32⟩ : BufTy).Contents (Elt F) → (⟨S32x32, .i32⟩ : BufTy).Contents (Elt F)),
    StableHlo.binary main_v16 main_v24 main_v25 (cmpi .slt : (⟨S32x32, .i32⟩ : BufTy).Contents (Elt F) → (⟨S32x32, .i32⟩ : BufTy).Contents (Elt F) → (⟨S32x32, .i1⟩ : BufTy).Contents (Elt F)),
    StableHlo.nullary main_c_3 (constantI S_ 32 32#32),
    StableHlo.unary main_c_3 main_v26 (broadcastInDim S32x32 ![] bcast_S_S32x32 : (⟨S_, .i32⟩ : BufTy).Contents (Elt F) → (⟨S32x32, .i32⟩ : BufTy).Contents (Elt F)),
    StableHlo.binary main_v16 main_v26 main_v27 (addi : (⟨S32x32, .i32⟩ : BufTy).Contents (Elt F) → (⟨S32x32, .i32⟩ : BufTy).Contents (Elt F) → (⟨S32x32, .i32⟩ : BufTy).Contents (Elt F)),
    StableHlo.ternary main_v25 main_v27 main_v16 main_v28 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v28 main_v29 (broadcastInDim S32x32x1 ![0, 1] bcast_S32x32_S32x32x1_0_1 : (⟨S32x32, .i32⟩ : BufTy).Contents (Elt F) → (⟨S32x32x1, .i32⟩ : BufTy).Contents (Elt F)),
    StableHlo.binary main_v8 main_v29 main_v30 ((fun x i => Host.gather gather_S32x3_S32x32x1_S32x32x3_2_0_n_n_0_2_13 x i) : (⟨S32x3, .i32⟩ : BufTy).Contents (Elt F) → (⟨S32x32x1, .i32⟩ : BufTy).Contents (Elt F) → (⟨S32x32x3, .i32⟩ : BufTy).Contents (Elt F)),
    StableHlo.unary main_v5 main_v31 (broadcastInDim S1x32x1x1x512 ![1, 2, 4] bcast_S32x1x512_S1x32x1x1x512_1_2_4 : (⟨S32x1x512, .f32⟩ : BufTy).Contents (Elt F) → (⟨S1x32x1x1x512, .f32⟩ : BufTy).Contents (Elt F)),
    StableHlo.unary main_v23 main_v32 (broadcastInDim S32x32x1x3x512 ![0, 1, 3, 4] bcast_S32x32x3x512_S32x32x1x3x512_0_1_3_4 : (⟨S32x32x3x512, .f32⟩ : BufTy).Contents (Elt F) → (⟨S32x32x1x3x512, .f32⟩ : BufTy).Contents (Elt F)),
    StableHlo.unary main_v31 main_v33 (broadcastInDim S32x32x1x3x512 ![0, 1, 2, 3, 4] bcast_S1x32x1x1x512_S32x32x1x3x512_0_1_2_3_4 : (⟨S1x32x1x1x512, .f32⟩ : BufTy).Contents (Elt F) → (⟨S32x32x1x3x512, .f32⟩ : BufTy).Contents (Elt F)),
    StableHlo.binary main_v33 main_v32 main_v34 (subf : (⟨S32x32x1x3x512, .f32⟩ : BufTy).Contents (Elt F) → (⟨S32x32x1x3x512, .f32⟩ : BufTy).Contents (Elt F) → (⟨S32x32x1x3x512, .f32⟩ : BufTy).Contents (Elt F)),
    StableHlo.binary main_v34 main_v34 main_v35 (mulf : (⟨S32x32x1x3x512, .f32⟩ : BufTy).Contents (Elt F) → (⟨S32x32x1x3x512, .f32⟩ : BufTy).Contents (Elt F) → (⟨S32x32x1x3x512, .f32⟩ : BufTy).Contents (Elt F)),
    StableHlo.unary main_v7 main_v36 (broadcastInDim S1x32x1x1 ![1, 2] bcast_S32x1_S1x32x1x1_1_2 : (⟨S32x1, .i32⟩ : BufTy).Contents (Elt F) → (⟨S1x32x1x1, .i32⟩ : BufTy).Contents (Elt F)),
    StableHlo.unary main_v30 main_v37 (broadcastInDim S32x32x1x3 ![0, 1, 3] bcast_S32x32x3_S32x32x1x3_0_1_3 : (⟨S32x32x3, .i32⟩ : BufTy).Contents (Elt F) → (⟨S32x32x1x3, .i32⟩ : BufTy).Contents (Elt F)),
    StableHlo.unary main_v36 main_v38 (broadcastInDim S32x32x1x3 ![0, 1, 2, 3] bcast_S1x32x1x1_S32x32x1x3_0_1_2_3 : (⟨S1x32x1x1, .i32⟩ : BufTy).Contents (Elt F) → (⟨S32x32x1x3, .i32⟩ : BufTy).Contents (Elt F)),
    StableHlo.binary main_v38 main_v37 main_v39 (cmpi .eq : (⟨S32x32x1x3, .i32⟩ : BufTy).Contents (Elt F) → (⟨S32x32x1x3, .i32⟩ : BufTy).Contents (Elt F) → (⟨S32x32x1x3, .i1⟩ : BufTy).Contents (Elt F)),
    StableHlo.unary main_v39 main_v40 ((extui 32 · natLt_1_32) : (⟨S32x32x1x3, .i1⟩ : BufTy).Contents (Elt F) → (⟨S32x32x1x3, .i32⟩ : BufTy).Contents (Elt F)),
    StableHlo.unary main_v8 main_v41 (broadcastInDim S1x32x3x1 ![1, 2] bcast_S32x3_S1x32x3x1_1_2 : (⟨S32x3, .i32⟩ : BufTy).Contents (Elt F) → (⟨S1x32x3x1, .i32⟩ : BufTy).Contents (Elt F)),
    StableHlo.unary main_v30 main_v42 (broadcastInDim S32x32x1x3 ![0, 1, 3] bcast_S32x32x3_S32x32x1x3_0_1_3 : (⟨S32x32x3, .i32⟩ : BufTy).Contents (Elt F) → (⟨S32x32x1x3, .i32⟩ : BufTy).Contents (Elt F)),
    StableHlo.unary main_v41 main_v43 (broadcastInDim S32x32x3x3 ![0, 1, 2, 3] bcast_S1x32x3x1_S32x32x3x3_0_1_2_3 : (⟨S1x32x3x1, .i32⟩ : BufTy).Contents (Elt F) → (⟨S32x32x3x3, .i32⟩ : BufTy).Contents (Elt F)),
    StableHlo.unary main_v42 main_v44 (broadcastInDim S32x32x3x3 ![0, 1, 2, 3] bcast_S32x32x1x3_S32x32x3x3_0_1_2_3 : (⟨S32x32x1x3, .i32⟩ : BufTy).Contents (Elt F) → (⟨S32x32x3x3, .i32⟩ : BufTy).Contents (Elt F)),
    StableHlo.binary main_v43 main_v44 main_v45 (cmpi .eq : (⟨S32x32x3x3, .i32⟩ : BufTy).Contents (Elt F) → (⟨S32x32x3x3, .i32⟩ : BufTy).Contents (Elt F) → (⟨S32x32x3x3, .i1⟩ : BufTy).Contents (Elt F)),
    StableHlo.unary main_v45 main_v46 (uitofp .f32 : (⟨S32x32x3x3, .i1⟩ : BufTy).Contents (Elt F) → (⟨S32x32x3x3, .f32⟩ : BufTy).Contents (Elt F)) ]

/-- @main's 72 operations, in order. -/
abbrev ops : List (HloOp τ sig (Elt F)) :=
  [ StableHlo.reshape main_arg0 main_v0 rfl shapeCasts_S32x4x3x256x128_S32x4x98304,
    StableHlo.binary main_v0 main_arg2 main_v1 ((fun l r => Host.dotGeneral dot_S32x4x98304_S98304x512_S32x4x512_2_0_01_1_n_n none l r) : (⟨S32x4x98304, .f32⟩ : BufTy).Contents (Elt F) → (⟨S98304x512, .f32⟩ : BufTy).Contents (Elt F) → (⟨S32x4x512, .f32⟩ : BufTy).Contents (Elt F)),
    StableHlo.unary main_arg3 main_v2 (broadcastInDim S1x1x512 ![2] bcast_S512_S1x1x512_2 : (⟨S512, .f32⟩ : BufTy).Contents (Elt F) → (⟨S1x1x512, .f32⟩ : BufTy).Contents (Elt F)),
    StableHlo.unary main_v2 main_v3 (broadcastInDim S32x4x512 ![0, 1, 2] bcast_S1x1x512_S32x4x512_0_1_2 : (⟨S1x1x512, .f32⟩ : BufTy).Contents (Elt F) → (⟨S32x4x512, .f32⟩ : BufTy).Contents (Elt F)),
    StableHlo.binary main_v1 main_v3 main_v4 (addf : (⟨S32x4x512, .f32⟩ : BufTy).Contents (Elt F) → (⟨S32x4x512, .f32⟩ : BufTy).Contents (Elt F) → (⟨S32x4x512, .f32⟩ : BufTy).Contents (Elt F)),
    StableHlo.unary main_v4 main_v5 ((extractStridedSlice S32x1x512 ![0, 0, 0] · slices_S32x4x512_S32x1x512_0_0_0) : (⟨S32x4x512, .f32⟩ : BufTy).Contents (Elt F) → (⟨S32x1x512, .f32⟩ : BufTy).Contents (Elt F)),
    StableHlo.unary main_v4 main_v6 ((extractStridedSlice S32x3x512 ![0, 1, 0] · slices_S32x4x512_S32x3x512_0_1_0) : (⟨S32x4x512, .f32⟩ : BufTy).Contents (Elt F) → (⟨S32x3x512, .f32⟩ : BufTy).Contents (Elt F)),
    StableHlo.unary main_arg1 main_v7 ((extractStridedSlice S32x1 ![0, 0] · slices_S32x4_S32x1_0_0) : (⟨S32x4, .i32⟩ : BufTy).Contents (Elt F) → (⟨S32x1, .i32⟩ : BufTy).Contents (Elt F)),
    StableHlo.unary main_arg1 main_v8 ((extractStridedSlice S32x3 ![0, 1] · slices_S32x4_S32x3_0_1) : (⟨S32x4, .i32⟩ : BufTy).Contents (Elt F) → (⟨S32x3, .i32⟩ : BufTy).Contents (Elt F)),
    StableHlo.nullary main_v9 (iotaInDim S32 32 0),
    StableHlo.unary main_v9 main_v10 (broadcastInDim S1x32 ![1] bcast_S32_S1x32_1 : (⟨S32, .i32⟩ : BufTy).Contents (Elt F) → (⟨S1x32, .i32⟩ : BufTy).Contents (Elt F)),
    StableHlo.nullary main_v11 (iotaInDim S32 32 0),
    StableHlo.unary main_v11 main_v12 (broadcastInDim S32x1 ![0] bcast_S32_S32x1_0 : (⟨S32, .i32⟩ : BufTy).Contents (Elt F) → (⟨S32x1, .i32⟩ : BufTy).Contents (Elt F)),
    StableHlo.unary main_v10 main_v13 (broadcastInDim S32x32 ![0, 1] bcast_S1x32_S32x32_0_1 : (⟨S1x32, .i32⟩ : BufTy).Contents (Elt F) → (⟨S32x32, .i32⟩ : BufTy).Contents (Elt F)),
    StableHlo.unary main_v12 main_v14 (broadcastInDim S32x32 ![0, 1] bcast_S32x1_S32x32_0_1 : (⟨S32x1, .i32⟩ : BufTy).Contents (Elt F) → (⟨S32x32, .i32⟩ : BufTy).Contents (Elt F)),
    StableHlo.binary main_v13 main_v14 main_v15 (addi : (⟨S32x32, .i32⟩ : BufTy).Contents (Elt F) → (⟨S32x32, .i32⟩ : BufTy).Contents (Elt F) → (⟨S32x32, .i32⟩ : BufTy).Contents (Elt F)),
    StableHlo.nullary main_c (constantI S_ 32 32#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S32x32, .i32⟩) (broadcastInDim S32x32 ![] bcast_S_S32x32),
    StableHlo.TRef.binary (.of main_v15 : StableHlo.TRef sig ⟨S32x32, .i32⟩) (.of main_call0_v3 : StableHlo.TRef sig ⟨S32x32, .i32⟩) (.of main_call0_v4 : StableHlo.TRef sig ⟨S32x32, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S32x32, .i32⟩) (broadcastInDim S32x32 ![] bcast_S_S32x32),
    StableHlo.TRef.binary (.of main_call0_v4 : StableHlo.TRef sig ⟨S32x32, .i32⟩) (.of main_call0_v5 : StableHlo.TRef sig ⟨S32x32, .i32⟩) (.of main_call0_v6 : StableHlo.TRef sig ⟨S32x32, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S32x32, .i32⟩) (broadcastInDim S32x32 ![] bcast_S_S32x32),
    StableHlo.TRef.binary (.of main_call0_v4 : StableHlo.TRef sig ⟨S32x32, .i32⟩) (.of main_call0_v7 : StableHlo.TRef sig ⟨S32x32, .i32⟩) (.of main_call0_v8 : StableHlo.TRef sig ⟨S32x32, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S32x32, .i1⟩) (broadcastInDim S32x32 ![] bcast_S_S32x32),
    StableHlo.TRef.binary (.of main_call0_v8 : StableHlo.TRef sig ⟨S32x32, .i1⟩) (.of main_call0_v10 : StableHlo.TRef sig ⟨S32x32, .i1⟩) (.of main_call0_v11 : StableHlo.TRef sig ⟨S32x32, .i1⟩) (cmpi .ne),
    StableHlo.TRef.binary (.of main_call0_v11 : StableHlo.TRef sig ⟨S32x32, .i1⟩) (.of main_call0_v6 : StableHlo.TRef sig ⟨S32x32, .i1⟩) (.of main_call0_v12 : StableHlo.TRef sig ⟨S32x32, .i1⟩) andi,
    StableHlo.TRef.unary main_call0_call0.v0 (.of main_call0_v13 : StableHlo.TRef sig ⟨S32x32, .i32⟩) (broadcastInDim S32x32 ![] bcast_S_S32x32),
    StableHlo.TRef.binary (.of main_call0_v4 : StableHlo.TRef sig ⟨S32x32, .i32⟩) (.of main_call0_v13 : StableHlo.TRef sig ⟨S32x32, .i32⟩) (.of main_call0_v14 : StableHlo.TRef sig ⟨S32x32, .i32⟩) addi,
    StableHlo.TRef.ternary (.of main_call0_v12 : StableHlo.TRef sig ⟨S32x32, .i1⟩) (.of main_call0_v14 : StableHlo.TRef sig ⟨S32x32, .i32⟩) (.of main_call0_v4 : StableHlo.TRef sig ⟨S32x32, .i32⟩) (.of main_v16 : StableHlo.TRef sig ⟨S32x32, .i32⟩) select,
    StableHlo.nullary main_c_0 (constantI S_ 32 0#32),
    StableHlo.unary main_c_0 main_v17 (broadcastInDim S32x32 ![] bcast_S_S32x32 : (⟨S_, .i32⟩ : BufTy).Contents (Elt F) → (⟨S32x32, .i32⟩ : BufTy).Contents (Elt F)),
    StableHlo.binary main_v16 main_v17 main_v18 (cmpi .slt : (⟨S32x32, .i32⟩ : BufTy).Contents (Elt F) → (⟨S32x32, .i32⟩ : BufTy).Contents (Elt F) → (⟨S32x32, .i1⟩ : BufTy).Contents (Elt F)),
    StableHlo.nullary main_c_1 (constantI S_ 32 32#32),
    StableHlo.unary main_c_1 main_v19 (broadcastInDim S32x32 ![] bcast_S_S32x32 : (⟨S_, .i32⟩ : BufTy).Contents (Elt F) → (⟨S32x32, .i32⟩ : BufTy).Contents (Elt F)),
    StableHlo.binary main_v16 main_v19 main_v20 (addi : (⟨S32x32, .i32⟩ : BufTy).Contents (Elt F) → (⟨S32x32, .i32⟩ : BufTy).Contents (Elt F) → (⟨S32x32, .i32⟩ : BufTy).Contents (Elt F)),
    StableHlo.ternary main_v18 main_v20 main_v16 main_v21 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v21 main_v22 (broadcastInDim S32x32x1 ![0, 1] bcast_S32x32_S32x32x1_0_1 : (⟨S32x32, .i32⟩ : BufTy).Contents (Elt F) → (⟨S32x32x1, .i32⟩ : BufTy).Contents (Elt F)),
    StableHlo.binary main_v6 main_v22 main_v23 ((fun x i => Host.gather gather_S32x3x512_S32x32x1_S32x32x3x512_23_0_n_n_0_2_13512 x i) : (⟨S32x3x512, .f32⟩ : BufTy).Contents (Elt F) → (⟨S32x32x1, .i32⟩ : BufTy).Contents (Elt F) → (⟨S32x32x3x512, .f32⟩ : BufTy).Contents (Elt F)),
    StableHlo.nullary main_c_2 (constantI S_ 32 0#32),
    StableHlo.unary main_c_2 main_v24 (broadcastInDim S32x32 ![] bcast_S_S32x32 : (⟨S_, .i32⟩ : BufTy).Contents (Elt F) → (⟨S32x32, .i32⟩ : BufTy).Contents (Elt F)),
    StableHlo.binary main_v16 main_v24 main_v25 (cmpi .slt : (⟨S32x32, .i32⟩ : BufTy).Contents (Elt F) → (⟨S32x32, .i32⟩ : BufTy).Contents (Elt F) → (⟨S32x32, .i1⟩ : BufTy).Contents (Elt F)),
    StableHlo.nullary main_c_3 (constantI S_ 32 32#32),
    StableHlo.unary main_c_3 main_v26 (broadcastInDim S32x32 ![] bcast_S_S32x32 : (⟨S_, .i32⟩ : BufTy).Contents (Elt F) → (⟨S32x32, .i32⟩ : BufTy).Contents (Elt F)),
    StableHlo.binary main_v16 main_v26 main_v27 (addi : (⟨S32x32, .i32⟩ : BufTy).Contents (Elt F) → (⟨S32x32, .i32⟩ : BufTy).Contents (Elt F) → (⟨S32x32, .i32⟩ : BufTy).Contents (Elt F)),
    StableHlo.ternary main_v25 main_v27 main_v16 main_v28 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v28 main_v29 (broadcastInDim S32x32x1 ![0, 1] bcast_S32x32_S32x32x1_0_1 : (⟨S32x32, .i32⟩ : BufTy).Contents (Elt F) → (⟨S32x32x1, .i32⟩ : BufTy).Contents (Elt F)),
    StableHlo.binary main_v8 main_v29 main_v30 ((fun x i => Host.gather gather_S32x3_S32x32x1_S32x32x3_2_0_n_n_0_2_13 x i) : (⟨S32x3, .i32⟩ : BufTy).Contents (Elt F) → (⟨S32x32x1, .i32⟩ : BufTy).Contents (Elt F) → (⟨S32x32x3, .i32⟩ : BufTy).Contents (Elt F)),
    StableHlo.unary main_v5 main_v31 (broadcastInDim S1x32x1x1x512 ![1, 2, 4] bcast_S32x1x512_S1x32x1x1x512_1_2_4 : (⟨S32x1x512, .f32⟩ : BufTy).Contents (Elt F) → (⟨S1x32x1x1x512, .f32⟩ : BufTy).Contents (Elt F)),
    StableHlo.unary main_v23 main_v32 (broadcastInDim S32x32x1x3x512 ![0, 1, 3, 4] bcast_S32x32x3x512_S32x32x1x3x512_0_1_3_4 : (⟨S32x32x3x512, .f32⟩ : BufTy).Contents (Elt F) → (⟨S32x32x1x3x512, .f32⟩ : BufTy).Contents (Elt F)),
    StableHlo.unary main_v31 main_v33 (broadcastInDim S32x32x1x3x512 ![0, 1, 2, 3, 4] bcast_S1x32x1x1x512_S32x32x1x3x512_0_1_2_3_4 : (⟨S1x32x1x1x512, .f32⟩ : BufTy).Contents (Elt F) → (⟨S32x32x1x3x512, .f32⟩ : BufTy).Contents (Elt F)),
    StableHlo.binary main_v33 main_v32 main_v34 (subf : (⟨S32x32x1x3x512, .f32⟩ : BufTy).Contents (Elt F) → (⟨S32x32x1x3x512, .f32⟩ : BufTy).Contents (Elt F) → (⟨S32x32x1x3x512, .f32⟩ : BufTy).Contents (Elt F)),
    StableHlo.binary main_v34 main_v34 main_v35 (mulf : (⟨S32x32x1x3x512, .f32⟩ : BufTy).Contents (Elt F) → (⟨S32x32x1x3x512, .f32⟩ : BufTy).Contents (Elt F) → (⟨S32x32x1x3x512, .f32⟩ : BufTy).Contents (Elt F)),
    StableHlo.unary main_v7 main_v36 (broadcastInDim S1x32x1x1 ![1, 2] bcast_S32x1_S1x32x1x1_1_2 : (⟨S32x1, .i32⟩ : BufTy).Contents (Elt F) → (⟨S1x32x1x1, .i32⟩ : BufTy).Contents (Elt F)),
    StableHlo.unary main_v30 main_v37 (broadcastInDim S32x32x1x3 ![0, 1, 3] bcast_S32x32x3_S32x32x1x3_0_1_3 : (⟨S32x32x3, .i32⟩ : BufTy).Contents (Elt F) → (⟨S32x32x1x3, .i32⟩ : BufTy).Contents (Elt F)),
    StableHlo.unary main_v36 main_v38 (broadcastInDim S32x32x1x3 ![0, 1, 2, 3] bcast_S1x32x1x1_S32x32x1x3_0_1_2_3 : (⟨S1x32x1x1, .i32⟩ : BufTy).Contents (Elt F) → (⟨S32x32x1x3, .i32⟩ : BufTy).Contents (Elt F)),
    StableHlo.binary main_v38 main_v37 main_v39 (cmpi .eq : (⟨S32x32x1x3, .i32⟩ : BufTy).Contents (Elt F) → (⟨S32x32x1x3, .i32⟩ : BufTy).Contents (Elt F) → (⟨S32x32x1x3, .i1⟩ : BufTy).Contents (Elt F)),
    StableHlo.unary main_v39 main_v40 ((extui 32 · natLt_1_32) : (⟨S32x32x1x3, .i1⟩ : BufTy).Contents (Elt F) → (⟨S32x32x1x3, .i32⟩ : BufTy).Contents (Elt F)),
    StableHlo.unary main_v8 main_v41 (broadcastInDim S1x32x3x1 ![1, 2] bcast_S32x3_S1x32x3x1_1_2 : (⟨S32x3, .i32⟩ : BufTy).Contents (Elt F) → (⟨S1x32x3x1, .i32⟩ : BufTy).Contents (Elt F)),
    StableHlo.unary main_v30 main_v42 (broadcastInDim S32x32x1x3 ![0, 1, 3] bcast_S32x32x3_S32x32x1x3_0_1_3 : (⟨S32x32x3, .i32⟩ : BufTy).Contents (Elt F) → (⟨S32x32x1x3, .i32⟩ : BufTy).Contents (Elt F)),
    StableHlo.unary main_v41 main_v43 (broadcastInDim S32x32x3x3 ![0, 1, 2, 3] bcast_S1x32x3x1_S32x32x3x3_0_1_2_3 : (⟨S1x32x3x1, .i32⟩ : BufTy).Contents (Elt F) → (⟨S32x32x3x3, .i32⟩ : BufTy).Contents (Elt F)),
    StableHlo.unary main_v42 main_v44 (broadcastInDim S32x32x3x3 ![0, 1, 2, 3] bcast_S32x32x1x3_S32x32x3x3_0_1_2_3 : (⟨S32x32x1x3, .i32⟩ : BufTy).Contents (Elt F) → (⟨S32x32x3x3, .i32⟩ : BufTy).Contents (Elt F)),
    StableHlo.binary main_v43 main_v44 main_v45 (cmpi .eq : (⟨S32x32x3x3, .i32⟩ : BufTy).Contents (Elt F) → (⟨S32x32x3x3, .i32⟩ : BufTy).Contents (Elt F) → (⟨S32x32x3x3, .i1⟩ : BufTy).Contents (Elt F)),
    StableHlo.unary main_v45 main_v46 (uitofp .f32 : (⟨S32x32x3x3, .i1⟩ : BufTy).Contents (Elt F) → (⟨S32x32x3x3, .f32⟩ : BufTy).Contents (Elt F)) ]

theorem ops_split : (ops : List (HloOp τ sig (Elt F))) = ops0 ++ ops1 ++ ops2 ++ ops3 := rfl

-- seventy-two binds re-associated
set_option maxRecDepth 2048 in
set_option maxHeartbeats 2000000 in
/-- @main is that straight line: the outlined functions' bodies unfolded at their calls, both sides are one chain
    of steps once sequencing is re-associated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., unary_bufs_sub .., unary_bufs_sub .., binary_bufs_sub .., unary_bufs_sub .., unary_bufs_sub .., unary_bufs_sub .., unary_bufs_sub .., nullary_bufs_sub .., unary_bufs_sub .., nullary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub ..⟩

/-- From any memory with zero counters every weakly fair execution of @main terminates, and every final state has
    each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The arguments are written by no operation -/

section Args
variable (V : Valuation τ sig (Elt F))
theorem arg0_eq : after ops V (Proc.devRef .tc main_arg0) = V (Proc.devRef .tc main_arg0) := by after_results_simp
theorem arg1_eq : after ops V (Proc.devRef .tc main_arg1) = V (Proc.devRef .tc main_arg1) := by after_results_simp
theorem arg2_eq : after ops V (Proc.devRef .tc main_arg2) = V (Proc.devRef .tc main_arg2) := by after_results_simp
theorem arg3_eq : after ops V (Proc.devRef .tc main_arg3) = V (Proc.devRef .tc main_arg3) := by after_results_simp
end Args

/-- The run with the results dropped: the arguments end unchanged. -/
theorem frame : Cert.frame_ReferenceIdeal := fun m ρ _ =>
  (θ_run defs _ _).mono (fun _ h c => ⟨(h c main_arg0).trans (arg0_eq _), (h c main_arg1).trans (arg1_eq _),
    (h c main_arg2).trans (arg2_eq _), (h c main_arg3).trans (arg3_eq _)⟩) (run_after (F := Ideal) m ρ)

end Cert.ReferenceIdeal.RefRun

end
-- ==== Proof.RefValue.lean ====
/-
  The reference's results as the shared tail of its embedding: the fold of the reference's operations, read one
  stretch at a time, is the embedding `eRef` of the three arrays it reads followed by the tail functions of
  that embedding and the labels.
-/
import proofs.«164070_j32693291057655_1_alg».proof.Proof.Tail
import proofs.«164070_j32693291057655_1_alg».proof.Proof.ERef
import proofs.«164070_j32693291057655_1_alg».proof.Proof.RefRun

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo

/-- The fold over two lines in a row. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

section Stages

-- the equations below are between one composition of the pure operations written two ways: they are compared
-- argument by argument, never opened
attribute [local irreducible] select cmpi addi andi Host.remsi broadcastInDim constantI Host.gather subf mulf addf extui uitofp
  extractStridedSlice shapeCast iotaInDim

variable (V : Valuation τ sig (Elt Ideal))

/-! ### The embedding -/
theorem r0_v4 : after (ops0 (F := Ideal)) V (Proc.devRef .tc main_v4)
    = Cert.Ref.eRef (V (Proc.devRef .tc main_arg0)) (V (Proc.devRef .tc main_arg2)) (V (Proc.devRef .tc main_arg3)) := by
  after_results; rfl
theorem r0_arg1 : after (ops0 (F := Ideal)) V (Proc.devRef .tc main_arg1) = V (Proc.devRef .tc main_arg1) := by after_results

/-! ### The slices and the table -/
theorem r1_v5 : after (ops1 (F := Ideal)) V (Proc.devRef .tc main_v5) = Cert.Tail.anchor (V (Proc.devRef .tc main_v4)) := by
  after_results; rfl
theorem r1_v6 : after (ops1 (F := Ideal)) V (Proc.devRef .tc main_v6) = Cert.Tail.positives (V (Proc.devRef .tc main_v4)) := by
  after_results; rfl
theorem r1_v7 : after (ops1 (F := Ideal)) V (Proc.devRef .tc main_v7) = Cert.Tail.anchorLab (V (Proc.devRef .tc main_arg1)) := by
  after_results; rfl
theorem r1_v8 : after (ops1 (F := Ideal)) V (Proc.devRef .tc main_v8) = Cert.Tail.positiveLab (V (Proc.devRef .tc main_arg1)) := by
  after_results; rfl
theorem r1_v15 : after (ops1 (F := Ideal)) V (Proc.devRef .tc main_v15) = Cert.Tail.sumTable := by
  after_results; rfl
theorem r1_c : after (ops1 (F := Ideal)) V (Proc.devRef .tc main_c) = Cert.Tail.modulus := by
  after_results; rfl

/-! ### The remainder -/
theorem r2_v16 : after (ops2 (F := Ideal)) V (Proc.devRef .tc main_v16)
    = Cert.Tail.pyRem (V (Proc.devRef .tc main_v15)) (V (Proc.devRef .tc main_c)) := by
  after_results_simp; rfl
theorem r2_v5 : after (ops2 (F := Ideal)) V (Proc.devRef .tc main_v5) = V (Proc.devRef .tc main_v5) := by after_results_simp
theorem r2_v6 : after (ops2 (F := Ideal)) V (Proc.devRef .tc main_v6) = V (Proc.devRef .tc main_v6) := by after_results_simp
theorem r2_v7 : after (ops2 (F := Ideal)) V (Proc.devRef .tc main_v7) = V (Proc.devRef .tc main_v7) := by after_results_simp
theorem r2_v8 : after (ops2 (F := Ideal)) V (Proc.devRef .tc main_v8) = V (Proc.devRef .tc main_v8) := by after_results_simp

/-! ### The rest of the tail -/
theorem r3_v35 : after (ops3 (F := Ideal)) V (Proc.devRef .tc main_v35)
    = Cert.Tail.dOf (V (Proc.devRef .tc main_v5)) (V (Proc.devRef .tc main_v6)) (V (Proc.devRef .tc main_v16)) := by
  after_results_simp; rfl
theorem r3_v46 : after (ops3 (F := Ideal)) V (Proc.devRef .tc main_v46)
    = Cert.Tail.wOf (V (Proc.devRef .tc main_v8)) (V (Proc.devRef .tc main_v16)) := by
  after_results_simp; rfl
theorem r3_v40 : after (ops3 (F := Ideal)) V (Proc.devRef .tc main_v40)
    = Cert.Tail.lOf (V (Proc.devRef .tc main_v7)) (V (Proc.devRef .tc main_v8)) (V (Proc.devRef .tc main_v16)) := by
  after_results_simp; rfl

end Stages

/-! ## The three results of the whole line -/

variable (V : Valuation τ sig (Elt Ideal))

theorem v35_eq : after (ops (F := Ideal)) V (Proc.devRef .tc main_v35)
    = Cert.Tail.tailD (Cert.Ref.eRef (V (Proc.devRef .tc main_arg0)) (V (Proc.devRef .tc main_arg2)) (V (Proc.devRef .tc main_arg3)))
        (V (Proc.devRef .tc main_arg1)) := by
  rw [ops_split, after_app, after_app, after_app, r3_v35, r2_v5, r2_v6, r2_v16, r1_v5, r1_v6, r1_v15, r1_c, r0_v4]; rfl
theorem v46_eq : after (ops (F := Ideal)) V (Proc.devRef .tc main_v46) = Cert.Tail.tailW (V (Proc.devRef .tc main_arg1)) := by
  rw [ops_split, after_app, after_app, after_app, r3_v46, r2_v8, r2_v16, r1_v8, r1_v15, r1_c, r0_arg1]; rfl
theorem v40_eq : after (ops (F := Ideal)) V (Proc.devRef .tc main_v40) = Cert.Tail.tailL (V (Proc.devRef .tc main_arg1)) := by
  rw [ops_split, after_app, after_app, after_app, r3_v40, r2_v7, r2_v8, r2_v16, r1_v7, r1_v8, r1_v15, r1_c, r0_arg1]; rfl

/-- From any memory with zero counters every weakly fair execution of the reference terminates with its three
    results the tail of its embedding and its four arguments unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v35)
          = Cert.Tail.tailD (Cert.Ref.eRef (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3)))
            (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v46)
          = Cert.Tail.tailW (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v40)
          = Cert.Tail.tailL (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v35).trans (v35_eq _), (h c main_v46).trans (v46_eq _), (h c main_v40).trans (v40_eq _),
      (h c main_arg0).trans (arg0_eq _), (h c main_arg1).trans (arg1_eq _), (h c main_arg2).trans (arg2_eq _), (h c main_arg3).trans (arg3_eq _)⟩)
    (run_after (F := Ideal) m g)

end Cert.ReferenceIdeal.RefValue

end
-- ==== Proof.lean ====
/-
  The kernel computes the siamese embedding e = reshape(x, [128, 98304]) · W + b with a matrix product tiled along the
  contraction axis — 24 grid points, each adding the product of a [128, 4096] block of x with a [4096, 512] block of W to an
  accumulator that is zeroed at the first point, the bias row added and the block stored after the last — and then forms,
  with plain array operations, the squared differences d between each probe embedding and the gallery embeddings of the
  batch rolled by k, and the two label-equality tables w and label. The reference computes e with one contraction over all
  98304 positions and applies the same array operations.

  At the exact reals (extended by ±∞) the two embeddings are one function of the arguments: a sum over 98304 positions is
  the sum over 24 blocks of the sums over the 4096 positions of each block, addition of extended reals being commutative and
  associative with 0 neutral; no other law is used, so the precondition is never opened. Everything after the embedding is
  the same function on both sides, carried as one opaque tail.

  Frames: the kernel's run (at the machine words and at the exact reals alike) is the launch of its pipeline around the
  body run once per control case, the accumulator carried from point to point by the region invariant; the reference's run
  is its straight line of host operations. The idealization rewrote nothing, so its soundness statement is trivial.
-/
import proofs.«164070_j32693291057655_1_alg».proof.Defs
import proofs.«164070_j32693291057655_1_alg».proof.Proof.Gen.Kernel
import proofs.«164070_j32693291057655_1_alg».proof.Proof.Gen.KernelIdeal
import proofs.«164070_j32693291057655_1_alg».proof.Proof.Gen.ReferenceIdeal
import proofs.«164070_j32693291057655_1_alg».proof.Proof.Gen.Pre_finite_inputs
import proofs.«164070_j32693291057655_1_alg».proof.Proof.KBClaim
import proofs.«164070_j32693291057655_1_alg».proof.Proof.KIValue
import proofs.«164070_j32693291057655_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := Cert.ReferenceIdeal.RefRun.frame

theorem preserves : Cert.preserves_Kernel_KernelIdeal := trivial

/-- Both programs end with the shared tail applied to the reference's embedding of the arguments and to the labels: the
    kernel because its tiled contraction plus bias is that embedding, the reference by definition; and the arguments agree. -/
theorem algebraic : Cert.algebraic_KernelIdeal_ReferenceIdeal := by
  intro m ρ m' ρ' _ hagree
  refine ⟨_, _, _, Cert.KernelIdeal.Val.run m ρ, ?_⟩
  refine (θ_run Cert.ReferenceIdeal.defs _ _).mono (fun _ h c => ?_) (Cert.ReferenceIdeal.RefValue.run m' ρ')
  obtain ⟨h1, h2, h3, h4, h5, h6, h7⟩ := h c
  obtain ⟨a0, a1, a2, a3⟩ := hagree c
  refine ⟨?_, ?_, ?_, h4, h5, h6, h7⟩
  · rw [h1, a0, a1, a2, a3]
  · rw [h2, a1]
  · rw [h3, a1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
